-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x32x4 : Shape := ⟨3, ![30000, 32, 4]⟩
abbrev S30000 : Shape := ⟨1, ![30000]⟩
abbrev S30000x4 : Shape := ⟨2, ![30000, 4]⟩
abbrev S9x64 : Shape := ⟨2, ![9, 64]⟩
abbrev S64 : Shape := ⟨1, ![64]⟩
abbrev S_ : Shape := ⟨0, ![]⟩

class Facts : Prop where
  bcast_S_S30000x32x4 : S_.BroadcastsInDim S30000x32x4 (![] : Fin 0 → Fin S30000x32x4.rank)
  reducesTo_S30000x32x4_S_d0_1_2 : S30000x32x4.ReducesTo [0, 1, 2] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S30000x32x4 .f32) (main_arg1 : IVec S30000 32) (main_arg2 : IVec S30000x4 32) (main_arg3 : FVec F S9x64 .f32) (main_arg4 : FVec F S64 .f32) (main_arg5 : FVec F S64 .f32) : IVec S_ 1 :=
  let main_v0 : FVec F S30000x32x4 .f32 := Host.absf main_arg0
  let main_cst : FVec F S_ .f32 := constant S_ .f32 0x7F800000#32
  let main_v1 : FVec F S30000x32x4 .f32 := broadcastInDim S30000x32x4 ![] bcast_S_S30000x32x4 main_cst
  let main_v2 : IVec S30000x32x4 1 := cmpf .olt main_v0 main_v1
  let main_c : IVec S_ 1 := constantI S_ 1 1#1
  let main_v3 : IVec S_ 1 := (fun x v => Host.reduce IntOp.andi x v reducesTo_S30000x32x4_S_d0_1_2 h_S_) main_v2 main_c
  let main_v4 : FVec F S9x64 .f32 := Host.absf main_arg3
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S30000x32x4 : Shape := ⟨3, ![30000, 32, 4]⟩
abbrev S30000 : Shape := ⟨1, ![30000]⟩
abbrev S30000x4 : Shape := ⟨2, ![30000, 4]⟩
abbrev S9x64 : Shape := ⟨2, ![9, 64]⟩
abbrev S64 : Shape := ⟨1, ![64]⟩
abbrev S30000x1 : Shape := ⟨2, ![30000, 1]⟩
abbrev S50x1x64 : Shape := ⟨3, ![50, 1, 64]⟩
abbrev S600x32x4 : Shape := ⟨3, ![600, 32, 4]⟩
abbrev S600x4 : Shape := ⟨2, ![600, 4]⟩
abbrev S600x1 : Shape := ⟨2, ![600, 1]⟩
abbrev S1x1x64 : Shape := ⟨3, ![1, 1, 64]⟩
abbrev S1x64 : Shape := ⟨2, ![1, 64]⟩
abbrev S4x64 : Shape := ⟨2, ![4, 64]⟩
abbrev S5x64 : Shape := ⟨2, ![5, 64]⟩
abbrev S600x32x3 : Shape := ⟨3, ![600, 32, 3]⟩
abbrev S600x3 : Shape := ⟨2, ![600, 3]⟩
abbrev S600 : Shape := ⟨1, ![600]⟩
abbrev S600x5 : Shape := ⟨2, ![600, 5]⟩
abbrev S600x64 : Shape := ⟨2, ![600, 64]⟩
abbrev S19200x4 : Shape := ⟨2, ![19200, 4]⟩
abbrev S19200x64 : Shape := ⟨2, ![19200, 64]⟩
abbrev S600x32x64 : Shape := ⟨3, ![600, 32, 64]⟩
abbrev S600x32 : Shape := ⟨2, ![600, 32]⟩
abbrev S600x32x1 : Shape := ⟨3, ![600, 32, 1]⟩
abbrev S600x1x64 : Shape := ⟨3, ![600, 1, 64]⟩
abbrev S_ : Shape := ⟨0, ![]⟩
abbrev S30000x64 : Shape := ⟨2, ![30000, 64]⟩

abbrev nBuf : Space → Nat
  | .hbm => 34
  | .vmem => 22
  | .smem => 0
  | _ => 0

abbrev bufTy : (tb : Table) → Fin (tcTables nBuf tb) → BufTy
  | .hbm, ⟨0, _⟩ => ⟨S30000x32x4, .f32⟩
  | .hbm, ⟨1, _⟩ => ⟨S30000, .i32⟩
  | .hbm, ⟨2, _⟩ => ⟨S30000x4, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S30000x1, .i32⟩
  | .hbm, ⟨7, _⟩ => ⟨S50x1x64, .f32⟩
  | .hbm, ⟨8, _⟩ => ⟨S50x1x64, .f32⟩
  | .hbm, ⟨9, _⟩ => ⟨S_, .f32⟩
  | .hbm, ⟨10, _⟩ => ⟨S1x64, .f32⟩
  | .hbm, ⟨11, _⟩ => ⟨S64, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S30000x64, .f32⟩
  | .local _ .vmem, ⟨0, _⟩ => ⟨S600x32x4, .f32⟩
  | .local _ .vmem, ⟨1, _⟩ => ⟨S600x32x4, .f32⟩
  | .local _ .vmem, ⟨2, _⟩ => ⟨S600x4, .i32⟩
  | .local _ .vmem, ⟨3, _⟩ => ⟨S600x4, .i32⟩
  | .local _ .vmem, ⟨4, _⟩ => ⟨S600x1, .i32⟩
  | .local _ .vmem, ⟨5, _⟩ => ⟨S600x1, .i32⟩
  | .local _ .vmem, ⟨6, _⟩ => ⟨S9x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S600x32x4, .f32⟩
  | .local _ .vmem, ⟨12, _⟩ => ⟨S600x32x4, .f32⟩
  | .local _ .vmem, ⟨13, _⟩ => ⟨S600x4, .i32⟩
  | .local _ .vmem, ⟨14, _⟩ => ⟨S600x4, .i32⟩
  | .local _ .vmem, ⟨15, _⟩ => ⟨S600x1, .i32⟩
  | .local _ .vmem, ⟨16, _⟩ => ⟨S600x1, .i32⟩
  | .local _ .vmem, ⟨17, _⟩ => ⟨S9x64, .f32⟩
  | .local _ .vmem, ⟨18, _⟩ => ⟨S1x64, .f32⟩
  | .local _ .vmem, ⟨19, _⟩ => ⟨S1x64, .f32⟩
  | .local _ .vmem, ⟨20, _⟩ => ⟨S600x64, .f32⟩
  | .local _ .vmem, ⟨21, _⟩ => ⟨S600x64, .f32⟩
  | _, _ => ⟨S30000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S600x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S600x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S600x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S600x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S600x4 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S600x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S600x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S30000_S30000x1 : S30000.ShapeCasts S30000x1
  inb_S600x32x4_S600x32x4_0_0_0 : ∀ a, (![0, 0, 0] : Fin 3 → Nat) a + S600x32x4.size a ≤ S600x32x4.size a
  h_S600x32x4 : 0 < S600x32x4.numel
  inb_S600x4_S600x4_0_0 : ∀ a, (![0, 0] : Fin 2 → Nat) a + S600x4.size a ≤ S600x4.size a
  h_S600x4 : 0 < S600x4.numel
  inb_S600x1_S600x1_0_0 : ∀ a, (![0, 0] : Fin 2 → Nat) a + S600x1.size a ≤ S600x1.size a
  h_S600x1 : 0 < S600x1.numel
  shapeCasts_S600x1_S600x1 : S600x1.ShapeCasts S600x1
  inb_S9x64_S9x64_0_0 : ∀ a, (![0, 0] : Fin 2 → Nat) a + S9x64.size a ≤ S9x64.size a
  h_S9x64 : 0 < S9x64.numel
  slices_S9x64_o0_0_S1x64 : S9x64.Slices ![0, 0] S1x64
  shapeCasts_S1x64_S64 : S1x64.ShapeCasts S64
  slices_S9x64_o1_0_S1x64 : S9x64.Slices ![1, 0] S1x64
  slices_S9x64_o2_0_S1x64 : S9x64.Slices ![2, 0] S1x64
  slices_S9x64_o3_0_S1x64 : S9x64.Slices ![3, 0] S1x64
  slices_S9x64_o4_0_S1x64 : S9x64.Slices ![4, 0] S1x64
  slices_S9x64_o5_0_S1x64 : S9x64.Slices ![5, 0] S1x64
  slices_S9x64_o6_0_S1x64 : S9x64.Slices ![6, 0] S1x64
  slices_S9x64_o7_0_S1x64 : S9x64.Slices ![7, 0] S1x64
  slices_S9x64_o8_0_S1x64 : S9x64.Slices ![8, 0] S1x64
  shapeCasts_S64_S1x64 : S64.ShapeCasts S1x64
  concatenates_S1x64_S1x64_S1x64_S1x64_S4x64_d0 : Shape.Concatenates [S1x64, S1x64, S1x64, S1x64] S4x64 0
  concatenates_S1x64_S1x64_S1x64_S1x64_S1x64_S5x64_d0 : Shape.Concatenates [S1x64, S1x64, S1x64, S1x64, S1x64] S5x64 0
  slices_S600x32x4_o0_0_0_S600x32x3 : S600x32x4.Slices ![0, 0, 0] S600x32x3
  reduces_S600x32x3_S600x3 : S600x32x3.Reduces [1] S600x3
  broadcasts_S600x1_S600x3 : S600x1.Broadcasts S600x3
  slices_S600x4_o0_3_S600x1 : S600x4.Slices ![0, 3] S600x1
  shapeCasts_S600x1_S600 : S600x1.ShapeCasts S600
  slices_S600x4_o0_2_S600x1 : S600x4.Slices ![0, 2] S600x1
  shapeCasts_S600_S600x1 : S600.ShapeCasts S600x1
  concatenates_S600x3_S600x1_S600x1_S600x5_d1 : Shape.Concatenates [S600x3, S600x1, S600x1] S600x5 1
  shapeCasts_S600x32x4_S19200x4 : S600x32x4.ShapeCasts S19200x4
  shapeCasts_S19200x64_S600x32x64 : S19200x64.ShapeCasts S600x32x64
  iota_S600x32_d1_w32 : S600x32.Iotas .tc 32 [1]
  broadcasts_S600x1_S600x32 : S600x1.Broadcasts S600x32
  natLt_1_32 : 1 < 32
  shapeCasts_S600x32_S600x32x1 : S600x32.ShapeCasts S600x32x1
  shapeCasts_S600x64_S600x1x64 : S600x64.ShapeCasts S600x1x64
  broadcasts_S600x1x64_S600x32x64 : S600x1x64.Broadcasts S600x32x64
  broadcasts_S600x32x1_S600x32x64 : S600x32x1.Broadcasts S600x32x64
  reduces_S600x32x64_S64 : S600x32x64.Reduces [0, 1] S64
  shapeCasts_S64_S1x1x64 : S64.ShapeCasts S1x1x64
  inb_S1x1x64_S1x1x64_0_0_0 : ∀ a, (![0, 0, 0] : Fin 3 → Nat) a + S1x1x64.size a ≤ S1x1x64.size a
  h_S1x1x64 : 0 < S1x1x64.numel
  reducesTo_S50x1x64_S1x64_d0 : S50x1x64.ReducesTo [0] S1x64
  h_S_ : 0 < S_.numel
  bcast_S_S64 : S_.BroadcastsInDim S64 (![] : Fin 0 → Fin S64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S600x32x64 : S1x1x64.Broadcasts S600x32x64
  reduces_S600x32x64_S600x64 : S600x32x64.Reduces [1] S600x64
  inb_S600x64_S600x64_0_0 : ∀ a, (![0, 0] : Fin 2 → Nat) a + S600x64.size a ≤ S600x64.size a
  h_S600x64 : 0 < S600x64.numel
  dot_S600x5_S5x64_S600x64_1_0_0_1_n_n_wf : DotDims.WF S600x5 S5x64 S600x64 [1] [0] [0] [1] [] []
  dot_S19200x4_S4x64_S19200x64_1_0_0_1_n_n_wf : DotDims.WF S19200x4 S4x64 S19200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S600x32x4.size a ≤ S30000x32x4.size a
  hwx0_0 : ∀ i : grid0.Coords, EltTy.bits .f32 = 32 ∨ (Rect.block (s := S30000x32x4) S600x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S600x4.size a ≤ S30000x4.size a
  hwx0_1 : ∀ i : grid0.Coords, EltTy.bits .i32 = 32 ∨ (Rect.block (s := S30000x4) S600x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S600x1.size a ≤ S30000x1.size a
  hwx0_2 : ∀ i : grid0.Coords, EltTy.bits .i32 = 32 ∨ (Rect.block (s := S30000x1) S600x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S50x1x64.size a
  hwx0_4 : ∀ i : grid0.Coords, EltTy.bits .f32 = 32 ∨ (Rect.block (s := S50x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S50x1x64.size a
  hwx0_5 : ∀ i : grid0.Coords, EltTy.bits .f32 = 32 ∨ (Rect.block (s := S50x1x64) S1x1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S600x32x4.size a ≤ S30000x32x4.size a
  hwx1_0 : ∀ i : grid1.Coords, EltTy.bits .f32 = 32 ∨ (Rect.block (s := S30000x32x4) S600x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S600x4.size a ≤ S30000x4.size a
  hwx1_1 : ∀ i : grid1.Coords, EltTy.bits .i32 = 32 ∨ (Rect.block (s := S30000x4) S600x4.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S600x1.size a ≤ S30000x1.size a
  hwx1_2 : ∀ i : grid1.Coords, EltTy.bits .i32 = 32 ∨ (Rect.block (s := S30000x1) S600x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64.size a ≤ S9x64.size a
  hwx1_3 : ∀ i : grid1.Coords, EltTy.bits .f32 = 32 ∨ (Rect.block (s := S9x64) S9x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S600x64.size a ≤ S30000x64.size a
  hwx1_6 : ∀ i : grid1.Coords, EltTy.bits .f32 = 32 ∨ (Rect.block (s := S30000x64) S600x64.size (cc1_transform_6 i) (hinb1_6 i)).WholeWords (EltTy.packing .f32)

variable [Facts₀]

def dot_S600x5_S5x64_S600x64_1_0_0_1_n_n : DotDims S600x5 S5x64 S600x64 where
  lhsContracting := [1]
  rhsContracting := [0]
  lhsNonContracting := [0]
  rhsNonContracting := [1]
  lhsBatch := []
  rhsBatch := []
  wf := dot_S600x5_S5x64_S600x64_1_0_0_1_n_n_wf
def dot_S19200x4_S4x64_S19200x64_1_0_0_1_n_n : DotDims S19200x4 S4x64 S19200x64 where
  lhsContracting := [1]
  rhsContracting := [0]
  lhsNonContracting := [0]
  rhsNonContracting := [1]
  lhsBatch := []
  rhsBatch := []
  wf := dot_S19200x4_S4x64_S19200x64_1_0_0_1_n_n_wf

abbrev win0_0 : Pipeline.Window sig grid0 :=
  Pipeline.Window.ofSpec (Memref.whole main_arg0) S600x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S600x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S600x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S600x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S600x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S600x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S9x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S600x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S30000x32x4 : Shape := ⟨3, ![30000, 32, 4]⟩
abbrev S30000 : Shape := ⟨1, ![30000]⟩
abbrev S30000x4 : Shape := ⟨2, ![30000, 4]⟩
abbrev S9x64 : Shape := ⟨2, ![9, 64]⟩
abbrev S64 : Shape := ⟨1, ![64]⟩
abbrev S30000x32x3 : Shape := ⟨3, ![30000, 32, 3]⟩
abbrev S_ : Shape := ⟨0, ![]⟩
abbrev S30000x3 : Shape := ⟨2, ![30000, 3]⟩
abbrev S30000x1x3 : Shape := ⟨3, ![30000, 1, 3]⟩
abbrev S30000x1x1 : Shape := ⟨3, ![30000, 1, 1]⟩
abbrev S30000x1 : Shape := ⟨2, ![30000, 1]⟩
abbrev S30000x32x1 : Shape := ⟨3, ![30000, 32, 1]⟩
abbrev S30000x32 : Shape := ⟨2, ![30000, 32]⟩
abbrev S30000x32x2 : Shape := ⟨3, ![30000, 32, 2]⟩
abbrev S30000x32x9 : Shape := ⟨3, ![30000, 32, 9]⟩
abbrev S32 : Shape := ⟨1, ![32]⟩
abbrev S1x32 : Shape := ⟨2, ![1, 32]⟩
abbrev S30000x32x64 : Shape := ⟨3, ![30000, 32, 64]⟩
abbrev S1x1x64 : Shape := ⟨3, ![1, 1, 64]⟩
abbrev S30000x64 : Shape := ⟨2, ![30000, 64]⟩

abbrev nBuf : Space → Nat
  | .hbm => 95
  | .vmem => 0
  | .smem => 0
  | _ => 0

abbrev bufTy : (tb : Table) → Fin (tcTables nBuf tb) → BufTy
  | .hbm, ⟨0, _⟩ => ⟨S30000x32x4, .f32⟩
  | .hbm, ⟨1, _⟩ => ⟨S30000, .i32⟩
  | .hbm, ⟨2, _⟩ => ⟨S30000x4, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S30000, .f32⟩
  | .hbm, ⟨7, _⟩ => ⟨S30000x32x3, .f32⟩
  | .hbm, ⟨8, _⟩ => ⟨S_, .f32⟩
  | .hbm, ⟨9, _⟩ => ⟨S30000x3, .f32⟩
  | .hbm, ⟨10, _⟩ => ⟨S30000x1x3, .f32⟩
  | .hbm, ⟨11, _⟩ => ⟨S30000x1x1, .f32⟩
  | .hbm, ⟨12, _⟩ => ⟨S30000x1x3, .f32⟩
  | .hbm, ⟨13, _⟩ => ⟨S30000x1x3, .f32⟩
  | .hbm, ⟨14, _⟩ => ⟨S30000x32x3, .f32⟩
  | .hbm, ⟨15, _⟩ => ⟨S30000x32x3, .f32⟩
  | .hbm, ⟨16, _⟩ => ⟨S30000x32x3, .f32⟩
  | .hbm, ⟨17, _⟩ => ⟨S30000x1, .i32⟩
  | .hbm, ⟨18, _⟩ => ⟨S30000, .i32⟩
  | .hbm, ⟨19, _⟩ => ⟨S30000, .f32⟩
  | .hbm, ⟨20, _⟩ => ⟨S30000x1, .f32⟩
  | .hbm, ⟨21, _⟩ => ⟨S_, .f32⟩
  | .hbm, ⟨22, _⟩ => ⟨S30000x1, .f32⟩
  | .hbm, ⟨23, _⟩ => ⟨S30000x1, .f32⟩
  | .hbm, ⟨24, _⟩ => ⟨S_, .f32⟩
  | .hbm, ⟨25, _⟩ => ⟨S30000x1, .f32⟩
  | .hbm, ⟨26, _⟩ => ⟨S30000x1, .f32⟩
  | .hbm, ⟨27, _⟩ => ⟨S30000x1, .i32⟩
  | .hbm, ⟨28, _⟩ => ⟨S30000, .i32⟩
  | .hbm, ⟨29, _⟩ => ⟨S30000, .f32⟩
  | .hbm, ⟨30, _⟩ => ⟨S30000x1, .f32⟩
  | .hbm, ⟨31, _⟩ => ⟨S_, .f32⟩
  | .hbm, ⟨32, _⟩ => ⟨S30000x1, .f32⟩
  | .hbm, ⟨33, _⟩ => ⟨S30000x1, .f32⟩
  | .hbm, ⟨34, _⟩ => ⟨S_, .f32⟩
  | .hbm, ⟨35, _⟩ => ⟨S30000x1, .f32⟩
  | .hbm, ⟨36, _⟩ => ⟨S30000x1, .f32⟩
  | .hbm, ⟨37, _⟩ => ⟨S30000x32x1, .f32⟩
  | .hbm, ⟨38, _⟩ => ⟨S30000x32, .f32⟩
  | .hbm, ⟨39, _⟩ => ⟨S30000x32, .f32⟩
  | .hbm, ⟨40, _⟩ => ⟨S30000x32, .f32⟩
  | .hbm, ⟨41, _⟩ => ⟨S30000x32x1, .f32⟩
  | .hbm, ⟨42, _⟩ => ⟨S30000x32, .f32⟩
  | .hbm, ⟨43, _⟩ => ⟨S30000x32, .f32⟩
  | .hbm, ⟨44, _⟩ => ⟨S30000x32, .f32⟩
  | .hbm, ⟨45, _⟩ => ⟨S30000x32x1, .f32⟩
  | .hbm, ⟨46, _⟩ => ⟨S30000x32x1, .f32⟩
  | .hbm, ⟨47, _⟩ => ⟨S30000x32x2, .f32⟩
  | .hbm, ⟨48, _⟩ => ⟨S30000x32x9, .f32⟩
  | .hbm, ⟨49, _⟩ => ⟨S32, .i32⟩
  | .hbm, ⟨50, _⟩ => ⟨S1x32, .i32⟩
  | .hbm, ⟨51, _⟩ => ⟨S30000x1, .i32⟩
  | .hbm, ⟨52, _⟩ => ⟨S30000x32, .i32⟩
  | .hbm, ⟨53, _⟩ => ⟨S30000x32, .i32⟩
  | .hbm, ⟨54, _⟩ => ⟨S30000x32, .i1⟩
  | .hbm, ⟨55, _⟩ => ⟨S30000x32, .f32⟩
  | .hbm, ⟨56, _⟩ => ⟨S30000x32x1, .f32⟩
  | .hbm, ⟨57, _⟩ => ⟨S30000x32x9, .f32⟩
  | .hbm, ⟨58, _⟩ => ⟨S30000x32x9, .f32⟩
  | .hbm, ⟨59, _⟩ => ⟨S30000x32x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x1x64, .f32⟩
  | .hbm, ⟨66, _⟩ => ⟨S30000x32x64, .f32⟩
  | .hbm, ⟨67, _⟩ => ⟨S30000x32x64, .f32⟩
  | .hbm, ⟨68, _⟩ => ⟨S30000x32x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x1x64, .f32⟩
  | .hbm, ⟨75, _⟩ => ⟨S30000x32x64, .f32⟩
  | .hbm, ⟨76, _⟩ => ⟨S30000x32x64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x1x64, .f32⟩
  | .hbm, ⟨82, _⟩ => ⟨S30000x32x64, .f32⟩
  | .hbm, ⟨83, _⟩ => ⟨S30000x32x64, .f32⟩
  | .hbm, ⟨84, _⟩ => ⟨S1x1x64, .f32⟩
  | .hbm, ⟨85, _⟩ => ⟨S30000x32x64, .f32⟩
  | .hbm, ⟨86, _⟩ => ⟨S30000x32x64, .f32⟩
  | .hbm, ⟨87, _⟩ => ⟨S1x1x64, .f32⟩
  | .hbm, ⟨88, _⟩ => ⟨S30000x32x64, .f32⟩
  | .hbm, ⟨89, _⟩ => ⟨S30000x32x64, .f32⟩
  | .hbm, ⟨90, _⟩ => ⟨S_, .f32⟩
  | .hbm, ⟨91, _⟩ => ⟨S30000x32x64, .f32⟩
  | .hbm, ⟨92, _⟩ => ⟨S30000x32x64, .f32⟩
  | .hbm, ⟨93, _⟩ => ⟨S_, .f32⟩
  | .hbm, ⟨94, _⟩ => ⟨S30000x64, .f32⟩
  | _, _ => ⟨S30000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_cst : Ref sig .tc := ⟨.hbm, 90, rfl⟩
abbrev main_call0_v0 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  slices_S30000x32x4_S30000x32x3_0_0_0 : S30000x32x4.Slices ![0, 0, 0] S30000x32x3
  reducesTo_S30000x32x3_S30000x3_d1 : S30000x32x3.ReducesTo [1] S30000x3
  h_S_ : 0 < S_.numel
  bcast_S30000x3_S30000x1x3_0_2 : S30000x3.BroadcastsInDim S30000x1x3 (![0, 2] : Fin 2 → Fin S30000x1x3.rank)
  bcast_S30000_S30000x1x1_0 : S30000.BroadcastsInDim S30000x1x1 (![0] : Fin 1 → Fin S30000x1x1.rank)
  bcast_S30000x1x1_S30000x1x3_0_1_2 : S30000x1x1.BroadcastsInDim S30000x1x3 (![0, 1, 2] : Fin 3 → Fin S30000x1x3.rank)
  bcast_S30000x1x3_S30000x32x3_0_1_2 : S30000x1x3.BroadcastsInDim S30000x32x3 (![0, 1, 2] : Fin 3 → Fin S30000x32x3.rank)
  slices_S30000x4_S30000x1_0_3 : S30000x4.Slices ![0, 3] S30000x1
  shapeCasts_S30000x1_S30000 : S30000x1.ShapeCasts S30000
  bcast_S30000_S30000x1_0 : S30000.BroadcastsInDim S30000x1 (![0] : Fin 1 → Fin S30000x1.rank)
  bcast_S_S30000x1 : S_.BroadcastsInDim S30000x1 (![] : Fin 0 → Fin S30000x1.rank)
  slices_S30000x4_S30000x1_0_2 : S30000x4.Slices ![0, 2] S30000x1
  slices_S30000x32x4_S30000x32x1_0_0_0 : S30000x32x4.Slices ![0, 0, 0] S30000x32x1
  shapeCasts_S30000x32x1_S30000x32 : S30000x32x1.ShapeCasts S30000x32
  bcast_S30000x1_S30000x32_0_1 : S30000x1.BroadcastsInDim S30000x32 (![0, 1] : Fin 2 → Fin S30000x32.rank)
  slices_S30000x32x4_S30000x32x1_0_0_1 : S30000x32x4.Slices ![0, 0, 1] S30000x32x1
  bcast_S30000x32_S30000x32x1_0_1 : S30000x32.BroadcastsInDim S30000x32x1 (![0, 1] : Fin 2 → Fin S30000x32x1.rank)
  concatenates_S30000x32x1_S30000x32x1_S30000x32x2_d2 : Shape.Concatenates [S30000x32x1, S30000x32x1] S30000x32x2 2
  concatenates_S30000x32x4_S30000x32x3_S30000x32x2_S30000x32x9_d2 : Shape.Concatenates [S30000x32x4, S30000x32x3, S30000x32x2] S30000x32x9 2
  bcast_S32_S1x32_1 : S32.BroadcastsInDim S1x32 (![1] : Fin 1 → Fin S1x32.rank)
  bcast_S1x32_S30000x32_0_1 : S1x32.BroadcastsInDim S30000x32 (![0, 1] : Fin 2 → Fin S30000x32.rank)
  bcast_S30000x32x1_S30000x32x9_0_1_2 : S30000x32x1.BroadcastsInDim S30000x32x9 (![0, 1, 2] : Fin 3 → Fin S30000x32x9.rank)
  reducesTo_S30000x32x64_S64_d0_1 : S30000x32x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S30000x32x64_0_1_2 : S1x1x64.BroadcastsInDim S30000x32x64 (![0, 1, 2] : Fin 3 → Fin S30000x32x64.rank)
  bcast_S_S30000x32x64 : S_.BroadcastsInDim S30000x32x64 (![] : Fin 0 → Fin S30000x32x64.rank)
  reducesTo_S30000x32x64_S30000x64_d1 : S30000x32x64.ReducesTo [1] S30000x64
  dot_S30000x32x9_S9x64_S30000x32x64_2_0_01_1_n_n_wf : DotDims.WF S30000x32x9 S9x64 S30000x32x64 [2] [0] [0, 1] [1] [] []

variable [Facts₀]

def dot_S30000x32x9_S9x64_S30000x32x64_2_0_01_1_n_n : DotDims S30000x32x9 S9x64 S30000x32x64 where
  lhsContracting := [2]
  rhsContracting := [0]
  lhsNonContracting := [0, 1]
  rhsNonContracting := [1]
  lhsBatch := []
  rhsBatch := []
  wf := dot_S30000x32x9_S9x64_S30000x32x64_2_0_01_1_n_n_wf

class Facts : Prop extends Facts₀ where

variable [Facts]
-- ==== Proof.KernelRun.lean ====
/-
  The idealized kernel's run with its result NAMED: every weakly fair execution of @main (host operations, the
  statistics region, host operations, the final region) terminates without a fault, the six argument arrays end as
  launched, and the result array ends at the contents the final region's write-backs leave (the boundary contents
  after the last segment, read at the result's buffer). This is the frame's run again, with the result's buffer read
  off the last boundary beside the arguments.
-/
import proofs.«136292_j60533269069953_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result's buffer ends at the last boundary's contents, the arguments as launched. -/
theorem run : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.Spec.lean ====
/-
  The mathematics both programs compute, stated once, with no program in sight.

  A PILLAR is up to 32 points of four raw channels (x, y, z, reflectance), a count of live points and the pillar's voxel
  coordinates. Each point is augmented to nine features: the four raw channels, its x, y, z offsets from the mean
  of the pillar's points (the sum over all 32 slots divided by the count), and its x, y offsets from the voxel's
  centre. Slots past the count are zeroed, and a 9 x 64 linear layer gives the point's 64 pre-activations. A batch
  normalisation over all 30000 x 32 slots (mean and biased variance per channel), ReLU, and the maximum over the
  pillar's 32 slots finish the layer.

  Two arrangements of this arithmetic are stated: the TILED one (the nine-wide product folded into a four-wide
  product minus a per-pillar offset, the count clamped below at one, the statistics as per-tile partial sums and
  E[x^2] - E[x]^2), and the DIRECT one (nine features, the mask before the product, the centred second moment).
  That they agree on finite inputs is the algebra of the certificate.
-/
import Idealize.ShloMosaic.PureOps.Ideal
import Idealize.ShloMosaic.Lib.ValueIdx

noncomputable section

namespace Cert.Pillar

open Idealize.ShloMosaic Idealize.ShloMosaic.ValueIdx

/-! ## The literals (the same words in both programs) -/

/-- The voxel's edge, the float nearest 0.16. -/
def vx : EReal := Ideal.ofBits .f32 0x3E23D70A#32
/-- The x offset of a voxel's centre, the float nearest 0.08. -/
def offx : EReal := Ideal.ofBits .f32 0x3DA3D70A#32
/-- The y offset of a voxel's centre, the float nearest -39.6. -/
def offy : EReal := Ideal.ofBits .f32 0xC21E6666#32
/-- The number of slots, 30000 * 32 = 960000. -/
def total : EReal := Ideal.ofBits .f32 0x496A6000#32
/-- The variance's guard, the float nearest 0.001. -/
def eps : EReal := Ideal.ofBits .f32 0x3A83126F#32

/-! ## One pillar -/

/-- One pillar's data: its 32 slots of four channels, its signed count of live points, its four voxel coordinates
    (batch, z, y, x). -/
structure Pillar where
  x : Fin 32 → Fin 4 → EReal
  np : BitVec 32
  co : Fin 4 → BitVec 32

variable (P : Pillar) (w : Fin 9 → Fin 64 → EReal)

/-- The count as a number. -/
def cnt : EReal := ((P.np.toInt : ℝ) : EReal)
/-- Slot n is live: n is below the count, as signed integers. -/
def live (n : Fin 32) : Bool := (BitVec.ofNat 32 n.val).slt P.np
/-- The mask: one on live slots, zero on the rest. -/
def msk (n : Fin 32) : EReal := if live P n then 1 else 0
/-- The voxel centre's x. -/
def cx : EReal := (((P.co 3).toInt : ℝ) : EReal) * vx + offx
/-- The voxel centre's y. -/
def cy : EReal := (((P.co 2).toInt : ℝ) : EReal) * vx + offy
/-- A channel summed over all 32 slots. -/
def colsum (c : Fin 4) : EReal := ∑ n : Fin 32, P.x n c

/-! ### The tiled arrangement -/

/-- The mean with the count clamped below at one. -/
def meanK (c : Fin 4) : EReal := Ideal.div (colsum P c) (max (cnt P) 1)
/-- The nine rows of the layer folded onto the four raw channels. -/
def weff (c : Fin 4) (d : Fin 64) : EReal :=
  match c with
  | 0 => w 0 d + w 4 d + w 7 d
  | 1 => w 1 d + w 5 d + w 8 d
  | 2 => w 2 d + w 6 d
  | 3 => w 3 d
/-- The pillar's five offsets: the three means and the centre. -/
def side (j : Fin 5) : EReal :=
  match j with
  | 0 => meanK P 0
  | 1 => meanK P 1
  | 2 => meanK P 2
  | 3 => cx P
  | 4 => cy P
/-- The rows of the layer the offsets meet. -/
def wside (j : Fin 5) (d : Fin 64) : EReal :=
  match j with
  | 0 => w 4 d
  | 1 => w 5 d
  | 2 => w 6 d
  | 3 => w 7 d
  | 4 => w 8 d
/-- A slot's pre-activation, tiled arrangement: the mask times (raw . folded rows - offsets . their rows). -/
def preK (n : Fin 32) (d : Fin 64) : EReal :=
  msk P n * ((∑ c : Fin 4, P.x n c * weff w c d) - ∑ j : Fin 5, side P j * wside w j d)

/-! ### The direct arrangement -/

/-- The mean as the host takes it: zero plus the sum, over the count as it is. -/
def meanR (c : Fin 4) : EReal := Ideal.div (0 + colsum P c) (cnt P)
/-- The nine features of a slot. -/
def feat (n : Fin 32) (c : Fin 9) : EReal :=
  match c with
  | 0 => P.x n 0
  | 1 => P.x n 1
  | 2 => P.x n 2
  | 3 => P.x n 3
  | 4 => P.x n 0 - meanR P 0
  | 5 => P.x n 1 - meanR P 1
  | 6 => P.x n 2 - meanR P 2
  | 7 => P.x n 0 - cx P
  | 8 => P.x n 1 - cy P
/-- A slot's pre-activation, direct arrangement: the masked features through the layer. -/
def preR (n : Fin 32) (d : Fin 64) : EReal := ∑ c : Fin 9, (feat P n c * msk P n) * w c d

/-! ## The whole arrays -/

abbrev SX : Shape := ⟨3, ![30000, 32, 4]⟩
abbrev SN : Shape := ⟨1, ![30000]⟩
abbrev SC : Shape := ⟨2, ![30000, 4]⟩
abbrev SW : Shape := ⟨2, ![9, 64]⟩
abbrev SV : Shape := ⟨1, ![64]⟩
abbrev SO : Shape := ⟨2, ![30000, 64]⟩

/-- The six argument arrays. -/
structure Args where
  X : SX.Idx → EReal
  NP : SN.Idx → BitVec 32
  CO : SC.Idx → BitVec 32
  W : SW.Idx → EReal
  γ : SV.Idx → EReal
  β : SV.Idx → EReal

variable (A : Args)

/-- Pillar p of the arrays. -/
def Args.pillar (p : Fin 30000) : Pillar :=
  ⟨fun n c => A.X (ix3 p n c), A.NP (ix1 p), fun c => A.CO (ix2 p c)⟩
/-- The layer's matrix by coordinates. -/
def Args.mat : Fin 9 → Fin 64 → EReal := fun c d => A.W (ix2 c d)

/-- Row r of tile t: pillars are taken 600 at a time. -/
def row (t : Fin 50) (r : Fin 600) : Fin 30000 := ⟨600 * t.val + r.val, by omega⟩

/-- The maximum over a pillar's 32 slots, from minus infinity. -/
def rowMax (f : Fin 32 → EReal) : EReal := (Finset.univ : Finset (Fin 32)).fold max ⊥ f

/-! ### Tiled: partial sums per tile of 600 pillars, then E[x^2] - E[x]^2 -/

/-- The tiled pre-activation of slot (p, n), channel d. -/
def pK (p : Fin 30000) (n : Fin 32) (d : Fin 64) : EReal := preK (A.pillar p) A.mat n d
/-- One tile's sum of the pre-activations of channel d. -/
def tileSum (t : Fin 50) (d : Fin 64) : EReal := ∑ r : Fin 600, ∑ n : Fin 32, pK A (row t r) n d
/-- One tile's sum of their squares. -/
def tileSq (t : Fin 50) (d : Fin 64) : EReal := ∑ r : Fin 600, ∑ n : Fin 32, pK A (row t r) n d * pK A (row t r) n d
def sumK (d : Fin 64) : EReal := 0 + ∑ t : Fin 50, tileSum A t d
def sqK (d : Fin 64) : EReal := 0 + ∑ t : Fin 50, tileSq A t d
def muK (d : Fin 64) : EReal := Ideal.div (sumK A d) total
def varK (d : Fin 64) : EReal := Ideal.div (sqK A d) total - muK A d * muK A d
def rK (d : Fin 64) : EReal := Ideal.rsqrt (varK A d + eps)
def scaleK (d : Fin 64) : EReal := A.γ (ix1 d) * rK A d
def shiftK (d : Fin 64) : EReal := A.β (ix1 d) - (muK A d * A.γ (ix1 d)) * rK A d
def outK (p : Fin 30000) (d : Fin 64) : EReal :=
  rowMax fun n => max (pK A p n d * scaleK A d + shiftK A d) 0
/-- The result, tiled arrangement. -/
def kernelFn : SO.Idx → EReal := fun i => outK A (i 0) (i 1)

/-! ### Direct: whole sums, the centred second moment -/

/-- The direct pre-activation of slot (p, n), channel d. -/
def pR (p : Fin 30000) (n : Fin 32) (d : Fin 64) : EReal := preR (A.pillar p) A.mat n d
def sumR (d : Fin 64) : EReal := 0 + ∑ p : Fin 30000, ∑ n : Fin 32, pR A p n d
def muR (d : Fin 64) : EReal := Ideal.div (sumR A d) total
def devR (d : Fin 64) : EReal := 0 + ∑ p : Fin 30000, ∑ n : Fin 32, (pR A p n d - muR A d) * (pR A p n d - muR A d)
def varR (d : Fin 64) : EReal := Ideal.div (devR A d) total
def rR (d : Fin 64) : EReal := Ideal.rsqrt (varR A d + eps)
def outR (p : Fin 30000) (d : Fin 64) : EReal :=
  rowMax fun n => max (((pR A p n d - muR A d) * rR A d) * A.γ (ix1 d) + A.β (ix1 d)) 0
/-- The result, direct arrangement. -/
def refFn : SO.Idx → EReal := fun i => outR A (i 0) (i 1)

/-- Every float argument is a real number. -/
structure Args.Finite : Prop where
  X : ∀ i, ∃ r : ℝ, A.X i = (r : EReal)
  W : ∀ i, ∃ r : ℝ, A.W i = (r : EReal)
  γ : ∀ i, ∃ r : ℝ, A.γ i = (r : EReal)
  β : ∀ i, ∃ r : ℝ, A.β i = (r : EReal)

end Cert.Pillar

end
-- ==== Proof.Block.lean ====
/-
  One block of 600 pillars as the kernel bodies load it: row r of the block is a pillar (its 32 slots of four
  channels from the points block, its count from the counts block, its coordinates from the coordinates block), and
  the layer's 9 x 64 matrix is read by coordinates.
-/
import proofs.«136292_j60533269069953_2_alg».proof.Proof.Spec
import proofs.«136292_j60533269069953_2_alg».proof.Proof.Gen.KernelIdeal

noncomputable section

namespace Cert.KernelIdeal.Body

open Cert.KernelIdeal Idealize.ShloMosaic Idealize.ShloMosaic.ValueIdx

/-- Row r of a block as a pillar. -/
def blockPillar (v0 : Vec Ideal S600x32x4 .f32) (v1 : Vec Ideal S600x4 .i32) (v2 : Vec Ideal S600x1 .i32) (r : Fin 600) :
    Cert.Pillar.Pillar :=
  ⟨fun n c => v0 (ix3 r n c), v2 (ix2 r (0 : Fin 1)), fun c => v1 (ix2 r c)⟩

/-- The layer's matrix by coordinates. -/
def mat (v4 : Vec Ideal S9x64 .f32) : Fin 9 → Fin 64 → EReal := fun c d => v4 (ix2 c d)

end Cert.KernelIdeal.Body

end
-- ==== Proof.Entry0.lean ====
/-
  What the statistics region finds: the points, the coordinates and the layer's matrix are the launch arrays (the one
  host operation before it writes none of them), and the counts are the launch counts reshaped to a column.
  Then: a block of 600 pillars read off those arrays is rows 600 t .. 600 t + 599 of the argument arrays.
-/
import proofs.«136292_j60533269069953_2_alg».proof.Proof.Gen.KernelIdeal.Frame
import proofs.«136292_j60533269069953_2_alg».proof.Proof.Spec
import proofs.«136292_j60533269069953_2_alg».proof.Proof.Block
import Idealize.ShloMosaic.Lib.Pipeline.Value
import Idealize.ShloMosaic.Lib.ValueLayout
import Idealize.ShloMosaic.Lib.StableHlo.Run

set_option maxRecDepth 16384

noncomputable section

namespace Cert.KernelIdeal.Stats

open Cert.KernelIdeal Cert.KernelIdeal.Gen Cert.KernelIdeal.Body
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The six argument arrays of core c at launch. -/
def args (c : Dev nD) : Cert.Pillar.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5)⟩

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg3 (c : Dev nD) : V1 m ρ c main_arg3 = m ((c : Thread nD τ).loc main_arg3) := by
  show StableHlo.after hostOps0 (W0 m ρ c) (Proc.devRef .tc main_arg3) = _
  after_results

theorem V1_v0 (c : Dev nD) :
    (V1 m ρ c main_v0 : S30000x1.Idx → BitVec 32) = shapeCast S30000x1 (m ((c : Thread nD τ).loc main_arg1)) shapeCasts_S30000_S30000x1 := by
  show StableHlo.after hostOps0 (W0 m ρ c) (Proc.devRef .tc main_v0) = _
  after_results
  rfl

/-- The counts column at row p is the count of pillar p. -/
theorem V1_v0_apply (c : Dev nD) (p : Fin 30000) :
    (V1 m ρ c main_v0 : S30000x1.Idx → BitVec 32) (ix2 p (0 : Fin 1)) = m ((c : Thread nD τ).loc main_arg1) (ix1 p) := by
  rw [V1_v0]
  refine shapeCast_apply _ _ (ix2 p (0 : Fin 1)) (ix1 p) ?_
  rw [Shape.rowMajor_val_one, Shape.rowMajor_val_two]
  show p.val = p.val * 1 + 0
  omega

/-- The tile a grid point works on. -/
def tile (t : Fin cfg0.N) : Fin 50 := ⟨t.val, lt_of_lt_of_eq t.isLt N_0⟩

/-- The printed index maps, decided over the grid: the windows over pillars (points, coordinates, counts, the two
    partial-sum outputs) are at block t on their first axis and block 0 elsewhere; the matrix is at block 0. -/
theorem idx0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The points block at (r, n, k) is the points array at pillar 600 t + r. -/
theorem blk0_X (c : Dev nD) (t : Fin cfg0.N) (r : Fin 600) (n : Fin 32) (k : Fin 4) :
    iblk0 (V1 m ρ) c 0 t (ix3 r n k) = (args m c).X (ix3 (Cert.Pillar.row (tile t) r) n k) := by
  show V1 m ρ c main_arg0 (((cfg0.win 0).blk t).view.emb (ix3 r n k)) = _
  rw [V1_arg0]
  show m ((c : Thread nD τ).loc main_arg0) _ = m ((c : Thread nD τ).loc main_arg0) _
  refine congrArg _ (funext fun a => Fin.ext ?_)
  obtain ⟨e0, e1, e2, -⟩ := idx0 t
  match a with
  | ⟨0, _⟩ => show win0_0.index t (0 : Fin 3) * 600 + 1 * r.val = 600 * t.val + r.val; omega
  | ⟨1, _⟩ => show win0_0.index t (1 : Fin 3) * 32 + 1 * n.val = n.val; omega
  | ⟨2, _⟩ => show win0_0.index t (2 : Fin 3) * 4 + 1 * k.val = k.val; omega

/-- The coordinates block at (r, k). -/
theorem blk0_C (c : Dev nD) (t : Fin cfg0.N) (r : Fin 600) (k : Fin 4) :
    iblk0 (V1 m ρ) c 1 t (ix2 r k) = (args m c).CO (ix2 (Cert.Pillar.row (tile t) r) k) := by
  show V1 m ρ c main_arg2 (((cfg0.win 1).blk t).view.emb (ix2 r k)) = _
  rw [V1_arg2]
  show m ((c : Thread nD τ).loc main_arg2) _ = m ((c : Thread nD τ).loc main_arg2) _
  refine congrArg _ (funext fun a => Fin.ext ?_)
  obtain ⟨-, -, -, e0, e1, -⟩ := idx0 t
  match a with
  | ⟨0, _⟩ => show win0_1.index t (0 : Fin 2) * 600 + 1 * r.val = 600 * t.val + r.val; omega
  | ⟨1, _⟩ => show win0_1.index t (1 : Fin 2) * 4 + 1 * k.val = k.val; omega

/-- The counts block at row r. -/
theorem blk0_N (c : Dev nD) (t : Fin cfg0.N) (r : Fin 600) :
    iblk0 (V1 m ρ) c 2 t (ix2 r (0 : Fin 1)) = (args m c).NP (ix1 (Cert.Pillar.row (tile t) r)) := by
  show V1 m ρ c main_v0 (((cfg0.win 2).blk t).view.emb (ix2 r (0 : Fin 1))) = _
  refine Eq.trans ?_ (V1_v0_apply m ρ c (Cert.Pillar.row (tile t) r))
  refine congrArg (V1 m ρ c main_v0 : S30000x1.Idx → BitVec 32) (funext fun a => Fin.ext ?_)
  obtain ⟨-, -, -, -, -, e0, e1, -⟩ := idx0 t
  match a with
  | ⟨0, _⟩ => show win0_2.index t (0 : Fin 2) * 600 + 1 * r.val = 600 * t.val + r.val; omega
  | ⟨1, _⟩ => show win0_2.index t (1 : Fin 2) * 1 + 1 * 0 = 0; omega

/-- The matrix block is the matrix. -/
theorem blk0_W (c : Dev nD) (t : Fin cfg0.N) (k : Fin 9) (d : Fin 64) :
    iblk0 (V1 m ρ) c 3 t (ix2 k d) = (args m c).W (ix2 k d) := by
  show V1 m ρ c main_arg3 (((cfg0.win 3).blk t).view.emb (ix2 k d)) = _
  rw [V1_arg3]
  show m ((c : Thread nD τ).loc main_arg3) _ = m ((c : Thread nD τ).loc main_arg3) _
  refine congrArg _ (funext fun a => Fin.ext ?_)
  obtain ⟨-, -, -, -, -, -, -, e0, e1, -⟩ := idx0 t
  match a with
  | ⟨0, _⟩ => show win0_3.index t (0 : Fin 2) * 9 + 1 * k.val = k.val; omega
  | ⟨1, _⟩ => show win0_3.index t (1 : Fin 2) * 64 + 1 * d.val = d.val; omega

/-- Row r of the block at point t is pillar 600 t + r of the arrays. -/
theorem blockPillar0 (c : Dev nD) (t : Fin cfg0.N) (r : Fin 600) :
    blockPillar (iblk0 (V1 m ρ) c 0 t) (iblk0 (V1 m ρ) c 1 t) (iblk0 (V1 m ρ) c 2 t) r
      = (args m c).pillar (Cert.Pillar.row (tile t) r) := by
  have hx : (fun n k => iblk0 (V1 m ρ) c 0 t (ix3 r n k)) = fun n k => (args m c).X (ix3 (Cert.Pillar.row (tile t) r) n k) :=
    funext fun n => funext fun k => blk0_X m ρ c t r n k
  have hc : (fun k => iblk0 (V1 m ρ) c 1 t (ix2 r k)) = fun k => (args m c).CO (ix2 (Cert.Pillar.row (tile t) r) k) :=
    funext fun k => blk0_C m ρ c t r k
  unfold blockPillar Cert.Pillar.Args.pillar
  rw [hx, hc, blk0_N m ρ c t r]

/-- The matrix of the block at point t is the arrays' matrix. -/
theorem mat0 (c : Dev nD) (t : Fin cfg0.N) : mat (iblk0 (V1 m ρ) c 3 t) = (args m c).mat :=
  funext fun k => funext fun d => blk0_W m ρ c t k d

end Cert.KernelIdeal.Stats

end
-- ==== Proof.MidStats.lean ====
/-
  The host arithmetic between the two regions, at the ideal values, as functions of the two arrays of per-tile partial
  sums (50 x 1 x 64 each), the scale vector gamma and the shift vector beta: per channel the partial sums are added
  up from zero, divided by the number of slots to give the mean and the mean square, the variance is their
  E[x^2] - E[x]^2, and the scale and shift rows are gamma / sqrt (var + eps) and beta - mean gamma / sqrt (var + eps).
  Read at a channel they are the specification's tiled statistics.
-/
import proofs.«136292_j60533269069953_2_alg».proof.Proof.Gen.KernelIdeal
import proofs.«136292_j60533269069953_2_alg».proof.Proof.Spec
import Idealize.ShloMosaic.Lib.Pipeline.Value
import Idealize.ShloMosaic.Lib.ValueIdx
import Idealize.ShloMosaic.PureOps.Ideal.Laws

noncomputable section

namespace Cert.KernelIdeal.Mid

open Cert.KernelIdeal Cert.KernelIdeal.Facts₀ Cert.KernelIdeal.Facts Idealize.ShloMosaic Idealize.ShloMosaic.ValueIdx

/-- A partial-sum array added up over its 50 tiles, from zero. -/
def hostTotal (s : FVec Ideal S50x1x64 .f32) : FVec Ideal S64 .f32 :=
  shapeCast S64 (Host.reduceAdd (F := Ideal) s (constant (F := Ideal) S_ .f32 0x00000000#32) reducesTo_S50x1x64_S1x64_d0 h_S_) shapeCasts_S1x64_S64
/-- ... divided by the number of slots. -/
def hostMean (s : FVec Ideal S50x1x64 .f32) : FVec Ideal S64 .f32 :=
  Host.divf (hostTotal s) (broadcastInDim S64 ![] bcast_S_S64 (constant (F := Ideal) S_ .f32 0x496A6000#32))
/-- One over the standard deviation: rsqrt (E[x^2] - E[x]^2 + eps). -/
def hostRs (s1 s2 : FVec Ideal S50x1x64 .f32) : FVec Ideal S64 .f32 :=
  Host.rsqrt (addf (subf (hostMean s2) (mulf (hostMean s1) (hostMean s1)))
    (broadcastInDim S64 ![] bcast_S_S64 (constant (F := Ideal) S_ .f32 0x3A83126F#32)))
/-- The scale row. -/
def hostScale (g : FVec Ideal S64 .f32) (s1 s2 : FVec Ideal S50x1x64 .f32) : FVec Ideal S1x64 .f32 :=
  shapeCast S1x64 (mulf g (hostRs s1 s2) : FVec Ideal S64 .f32) shapeCasts_S64_S1x64
/-- The shift row. -/
def hostShift (g b : FVec Ideal S64 .f32) (s1 s2 : FVec Ideal S50x1x64 .f32) : FVec Ideal S1x64 .f32 :=
  shapeCast S1x64 (subf b (mulf (mulf (hostMean s1) g) (hostRs s1 s2)) : FVec Ideal S64 .f32) shapeCasts_S64_S1x64

theorem hostTotal_apply (s : FVec Ideal S50x1x64 .f32) (d : Fin 64) :
    hostTotal s (ix1 d) = 0 + ∑ t : Fin 50, s (ix3 t (0 : Fin 1) d) := by
  unfold hostTotal
  rw [shapeCast_apply _ _ (ix1 d) (ix2 (0 : Fin 1) d) (by
    rw [Shape.rowMajor_val_one, Shape.rowMajor_val_two]; show 0 * 64 + d.val = d.val; omega)]
  simp only [Host.reduceAdd, Ideal.hostReduceAdd_def]
  rw [Ideal.hostReduceAdd_single reducesTo_S50x1x64_S1x64_d0 (by decide)]
  refine congrArg₂ (· + ·) (by show Ideal.ofBits .f32 0x00000000#32 = 0; exact Ideal.ofBits_zero_f32) (Finset.sum_congr rfl fun k _ => ?_)
  exact congrArg s (funext fun a => Fin.ext (by match a with | ⟨0, _⟩ => rfl | ⟨1, _⟩ => rfl | ⟨2, _⟩ => rfl))

theorem hostMean_apply (s : FVec Ideal S50x1x64 .f32) (d : Fin 64) :
    hostMean s (ix1 d) = Ideal.div (0 + ∑ t : Fin 50, s (ix3 t (0 : Fin 1) d)) Cert.Pillar.total := by
  rw [← hostTotal_apply]
  rfl

theorem hostRs_apply (s1 s2 : FVec Ideal S50x1x64 .f32) (d : Fin 64) :
    hostRs s1 s2 (ix1 d) = Ideal.rsqrt (hostMean s2 (ix1 d) - hostMean s1 (ix1 d) * hostMean s1 (ix1 d) + Cert.Pillar.eps) := rfl

theorem hostScale_apply (g : FVec Ideal S64 .f32) (s1 s2 : FVec Ideal S50x1x64 .f32) (d : Fin 64) :
    hostScale g s1 s2 (ix2 (0 : Fin 1) d) = g (ix1 d) * hostRs s1 s2 (ix1 d) := by
  unfold hostScale
  rw [shapeCast_apply _ _ (ix2 (0 : Fin 1) d) (ix1 d) (by
    rw [Shape.rowMajor_val_one, Shape.rowMajor_val_two]; show d.val = 0 * 64 + d.val; omega)]
  rfl

theorem hostShift_apply (g b : FVec Ideal S64 .f32) (s1 s2 : FVec Ideal S50x1x64 .f32) (d : Fin 64) :
    hostShift g b s1 s2 (ix2 (0 : Fin 1) d) = b (ix1 d) - (hostMean s1 (ix1 d) * g (ix1 d)) * hostRs s1 s2 (ix1 d) := by
  unfold hostShift
  rw [shapeCast_apply _ _ (ix2 (0 : Fin 1) d) (ix1 d) (by
    rw [Shape.rowMajor_val_one, Shape.rowMajor_val_two]; show d.val = 0 * 64 + d.val; omega)]
  rfl

variable (A : Cert.Pillar.Args)

/-- The arrays of per-tile sums and of per-tile sums of squares. -/
def sums : FVec Ideal S50x1x64 .f32 := fun i => Cert.Pillar.tileSum A (i 0) (i 2)
def sqs : FVec Ideal S50x1x64 .f32 := fun i => Cert.Pillar.tileSq A (i 0) (i 2)

theorem mean_eq (d : Fin 64) : hostMean (sums A) (ix1 d) = Cert.Pillar.muK A d := by
  rw [hostMean_apply]; rfl

theorem meansq_eq (d : Fin 64) : hostMean (sqs A) (ix1 d) = Ideal.div (Cert.Pillar.sqK A d) Cert.Pillar.total := by
  rw [hostMean_apply]; rfl

theorem rs_eq (d : Fin 64) : hostRs (sums A) (sqs A) (ix1 d) = Cert.Pillar.rK A d := by
  rw [hostRs_apply, mean_eq, meansq_eq]; rfl

/-- The scale row at channel d is the specification's scale. -/
theorem scale_eq (d : Fin 64) : hostScale A.γ (sums A) (sqs A) (ix2 (0 : Fin 1) d) = Cert.Pillar.scaleK A d := by
  rw [hostScale_apply, rs_eq]; rfl

/-- The shift row at channel d is the specification's shift. -/
theorem shift_eq (d : Fin 64) : hostShift A.γ A.β (sums A) (sqs A) (ix2 (0 : Fin 1) d) = Cert.Pillar.shiftK A d := by
  rw [hostShift_apply, rs_eq, mean_eq]; rfl

end Cert.KernelIdeal.Mid

end
-- ==== Proof.Entry1.lean ====
/-
  What the final region finds: the points, the coordinates, the counts column and the layer's matrix exactly as the
  statistics region found them (neither that region nor the host arithmetic after it writes them), and the scale and
  shift rows the host arithmetic computes from the two arrays the statistics region left and from gamma and beta.
-/
import proofs.«136292_j60533269069953_2_alg».proof.Proof.Entry0
import proofs.«136292_j60533269069953_2_alg».proof.Proof.MidStats

set_option maxRecDepth 16384

noncomputable section

namespace Cert.KernelIdeal.Final

open Cert.KernelIdeal Cert.KernelIdeal.Gen Cert.KernelIdeal.Body Cert.KernelIdeal.Stats
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem W2_arg0 (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (V1_arg0 m ρ c)))
theorem W2_arg2 (c : Dev nD) : W2 m ρ c (Proc.devRef .tc main_arg2) = m ((c : Thread nD τ).loc main_arg2) :=
  (W2_arr m ρ c 1).trans (((dat0 (V1 m ρ) c).arrAt_in 1 rfl _).trans ((A_eq0 (V1 m ρ) c 1).trans (V1_arg2 m ρ c)))
theorem W2_v0 (c : Dev nD) : W2 m ρ c (Proc.devRef .tc main_v0) = V1 m ρ c main_v0 :=
  (W2_arr m ρ c 2).trans (((dat0 (V1 m ρ) c).arrAt_in 2 rfl _).trans (A_eq0 (V1 m ρ) c 2))
theorem W2_arg3 (c : Dev nD) : W2 m ρ c (Proc.devRef .tc main_arg3) = m ((c : Thread nD τ).loc main_arg3) :=
  (W2_arr m ρ c 3).trans (((dat0 (V1 m ρ) c).arrAt_in 3 rfl _).trans ((A_eq0 (V1 m ρ) c 3).trans (V1_arg3 m ρ c)))
theorem W2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results
theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c
theorem V3_arg2 (c : Dev nD) : V3 m ρ c main_arg2 = m ((c : Thread nD τ).loc main_arg2) := by
  show StableHlo.after hostOps1 (W2 m ρ c) (Proc.devRef .tc main_arg2) = _
  after_results
  exact W2_arg2 m ρ c
theorem V3_v0 (c : Dev nD) : V3 m ρ c main_v0 = V1 m ρ c main_v0 := by
  show StableHlo.after hostOps1 (W2 m ρ c) (Proc.devRef .tc main_v0) = _
  after_results
  exact W2_v0 m ρ c
theorem V3_arg3 (c : Dev nD) : V3 m ρ c main_arg3 = m ((c : Thread nD τ).loc main_arg3) := by
  show StableHlo.after hostOps1 (W2 m ρ c) (Proc.devRef .tc main_arg3) = _
  after_results
  exact W2_arg3 m ρ c

/-- The scale row as the final region finds it. -/
theorem V3_v16 (c : Dev nD) :
    (V3 m ρ c main_v16 : FVec Ideal S1x64 .f32)
      = Mid.hostScale (m ((c : Thread nD τ).loc main_arg4)) ((dat0 (V1 m ρ) c).arrAt 4 cfg0.N) ((dat0 (V1 m ρ) c).arrAt 5 cfg0.N) := by
  show StableHlo.after hostOps1 (W2 m ρ c) (Proc.devRef .tc main_v16) = _
  after_results_simp
  have h4 : W2 m ρ c (Proc.devRef .tc main_v1_0) = (dat0 (V1 m ρ) c).arrAt 4 cfg0.N := W2_arr m ρ c 4
  have h5 : W2 m ρ c (Proc.devRef .tc main_v1_1) = (dat0 (V1 m ρ) c).arrAt 5 cfg0.N := W2_arr m ρ c 5
  rw [h4, h5, W2_arg4 m ρ c]
  rfl

/-- The shift row as the final region finds it. -/
theorem V3_v20 (c : Dev nD) :
    (V3 m ρ c main_v20 : FVec Ideal S1x64 .f32)
      = Mid.hostShift (m ((c : Thread nD τ).loc main_arg4)) (m ((c : Thread nD τ).loc main_arg5)) ((dat0 (V1 m ρ) c).arrAt 4 cfg0.N) ((dat0 (V1 m ρ) c).arrAt 5 cfg0.N) := by
  show StableHlo.after hostOps1 (W2 m ρ c) (Proc.devRef .tc main_v20) = _
  after_results_simp
  have h4 : W2 m ρ c (Proc.devRef .tc main_v1_0) = (dat0 (V1 m ρ) c).arrAt 4 cfg0.N := W2_arr m ρ c 4
  have h5 : W2 m ρ c (Proc.devRef .tc main_v1_1) = (dat0 (V1 m ρ) c).arrAt 5 cfg0.N := W2_arr m ρ c 5
  rw [h4, h5, W2_arg4 m ρ c, W2_arg5 m ρ c]
  rfl

end Cert.KernelIdeal.Final

end
-- ==== Proof.BodyRead1.lean ====
/-
  The kernel bodies' small values at the ideal numbers, read at explicit coordinates: the rows of the layer's matrix
  taken one by one, the coordinate columns, the counts, and the two stacked matrices — the nine rows folded onto the four
  raw channels (row c of the stack is the sum of the layer's rows that channel c meets) and the five rows the
  per-pillar offsets meet.
-/
import proofs.«136292_j60533269069953_2_alg».proof.Proof.Spec
import proofs.«136292_j60533269069953_2_alg».proof.Proof.Block
import proofs.«136292_j60533269069953_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

section Layout
variable {α : Type}

/-- A [1,64] row viewed as [64] reads (0, d) at d. -/
theorem cast_1x64_64 (x : S1x64.Idx → α) (d : Fin 64) :
    shapeCast S64 x shapeCasts_S1x64_S64 (ix1 d) = x (ix2 0 d) :=
  shapeCast_apply x _ (ix1 d) (ix2 0 d) (by
    rw [Shape.rowMajor_val_two, Shape.rowMajor_val_one]
    show 0 * 64 + d.val = d.val
    omega)

/-- A [64] vector viewed as a [1,64] row reads d at (0, d). -/
theorem cast_64_1x64 (x : S64.Idx → α) (z : Fin 1) (d : Fin 64) :
    shapeCast S1x64 x shapeCasts_S64_S1x64 (ix2 z d) = x (ix1 d) :=
  shapeCast_apply x _ (ix2 z d) (ix1 d) (by
    rw [Shape.rowMajor_val_two, Shape.rowMajor_val_one]
    show d.val = z.val * 64 + d.val
    have := z.isLt
    omega)

/-- A [600,1] column viewed as [600] reads (r, 0) at r. -/
theorem cast_600x1_600 (x : S600x1.Idx → α) (r : Fin 600) :
    shapeCast S600 x shapeCasts_S600x1_S600 (ix1 r) = x (ix2 r 0) :=
  shapeCast_apply x _ (ix1 r) (ix2 r 0) (by
    rw [Shape.rowMajor_val_two, Shape.rowMajor_val_one]
    show r.val * 1 + 0 = r.val
    omega)

/-- A [600] vector viewed as a [600,1] column reads r at (r, 0). -/
theorem cast_600_600x1 (x : S600.Idx → α) (r : Fin 600) (z : Fin 1) :
    shapeCast S600x1 x shapeCasts_S600_S600x1 (ix2 r z) = x (ix1 r) :=
  shapeCast_apply x _ (ix2 r z) (ix1 r) (by
    rw [Shape.rowMajor_val_two, Shape.rowMajor_val_one]
    show r.val = r.val * 1 + z.val
    have := z.isLt
    omega)

end Layout

/-- Row k of the matrix, sliced and flattened, reads the matrix at (k, d). -/
theorem row_apply (v4 : Vec Ideal S9x64 .f32) (k : Nat) (hk : k < 9) (h : S9x64.Slices ![k, 0] S1x64) (d : Fin 64) :
    shapeCast S64 (extractStridedSlice S1x64 ![k, 0] v4 h) shapeCasts_S1x64_S64 (ix1 d) = v4 (ix2 ⟨k, hk⟩ d) := by
  rw [cast_1x64_64]
  exact extractStridedSlice_apply _ v4 h (ix2 0 d) (ix2 ⟨k, hk⟩ d) (fun a => match a with
    | ⟨0, _⟩ => by show k = k + 0; omega
    | ⟨1, _⟩ => by show d.val = 0 + d.val; omega)

theorem pay5_apply (v4 : Vec Ideal S9x64 .f32) (d : Fin 64) : k0_pay5 v4 (ix1 d) = v4 (ix2 4 d) :=
  row_apply v4 4 (by decide) slices_S9x64_o4_0_S1x64 d
theorem pay6_apply (v4 : Vec Ideal S9x64 .f32) (d : Fin 64) : k0_pay6 v4 (ix1 d) = v4 (ix2 5 d) :=
  row_apply v4 5 (by decide) slices_S9x64_o5_0_S1x64 d
theorem pay7_apply (v4 : Vec Ideal S9x64 .f32) (d : Fin 64) : k0_pay7 v4 (ix1 d) = v4 (ix2 6 d) :=
  row_apply v4 6 (by decide) slices_S9x64_o6_0_S1x64 d
theorem pay8_apply (v4 : Vec Ideal S9x64 .f32) (d : Fin 64) : k0_pay8 v4 (ix1 d) = v4 (ix2 7 d) :=
  row_apply v4 7 (by decide) slices_S9x64_o7_0_S1x64 d
theorem pay9_apply (v4 : Vec Ideal S9x64 .f32) (d : Fin 64) : k0_pay9 v4 (ix1 d) = v4 (ix2 8 d) :=
  row_apply v4 8 (by decide) slices_S9x64_o8_0_S1x64 d

/-- The x coordinate column: column 3 of the coordinates block. -/
theorem pay13_apply (v1 : Vec Ideal S600x4 .i32) (r : Fin 600) : k0_pay13 v1 (ix1 r) = v1 (ix2 r 3) := by
  unfold k0_pay13
  rw [cast_600x1_600]
  exact extractStridedSlice_apply _ v1 _ (ix2 r 0) (ix2 r 3) (fun a => match a with
    | ⟨0, _⟩ => by show r.val = 0 + r.val; omega
    | ⟨1, _⟩ => by show 3 = 3 + 0; omega)

/-- The y coordinate column: column 2 of the coordinates block. -/
theorem col2_apply (v1 : Vec Ideal S600x4 .i32) (r : Fin 600) :
    shapeCast S600 (extractStridedSlice S600x1 ![0, 2] v1 slices_S600x4_o0_2_S600x1) shapeCasts_S600x1_S600 (ix1 r)
      = v1 (ix2 r 2) := by
  rw [cast_600x1_600]
  exact extractStridedSlice_apply _ v1 _ (ix2 r 0) (ix2 r 2) (fun a => match a with
    | ⟨0, _⟩ => by show r.val = 0 + r.val; omega
    | ⟨1, _⟩ => by show 2 = 2 + 0; omega)

/-- The counts block cast to its own shape is itself. -/
theorem pay4_eq (v2 : Vec Ideal S600x1 .i32) : k0_pay4 v2 = v2 := shapeCast_self v2 _

section Cat
variable {α : Type}

/-- Off the joined axis 0, row index (0, d) of a piece and (c, d) of the whole agree. -/
theorem cat_rows_off {N : Nat} (c : Fin N) (d : Fin 64) (b : Fin S1x64.rank)
    (hb : b.cast (rfl : S1x64.rank = (⟨2, ![N, 64]⟩ : Shape).rank) ≠ (0 : Fin 2)) :
    ((ix2 (0 : Fin 1) d) b).val = ((ix2 c d) (b.cast (rfl : S1x64.rank = (⟨2, ![N, 64]⟩ : Shape).rank))).val :=
  match b, hb with
  | ⟨0, _⟩, hb => absurd rfl hb
  | ⟨1, _⟩, _ => rfl

/-- Four rows stacked: row c of the stack is piece c. -/
theorem cat4_apply (x0 x1 x2 x3 : S1x64.Idx → α) (c : Fin 4) (d : Fin 64) :
    concatenate S4x64 0 [⟨S1x64, x0⟩, ⟨S1x64, x1⟩, ⟨S1x64, x2⟩, ⟨S1x64, x3⟩]
        concatenates_S1x64_S1x64_S1x64_S1x64_S4x64_d0 (ix2 c d)
      = (match c with | 0 => x0 | 1 => x1 | 2 => x2 | 3 => x3) (ix2 0 d) := by
  match c with
  | ⟨0, hc⟩ => exact concatenate_apply_piece 0 ([⟨S1x64, x0⟩, ⟨S1x64, x1⟩, ⟨S1x64, x2⟩, ⟨S1x64, x3⟩] : List ((s : Shape) × (s.Idx → α))) _ (ix2 ⟨0, hc⟩ d) 0 (by simp) S1x64 x0 rfl rfl 0 rfl (ix2 0 d) (cat_rows_off _ d) rfl
  | ⟨1, hc⟩ => exact concatenate_apply_piece 0 ([⟨S1x64, x0⟩, ⟨S1x64, x1⟩, ⟨S1x64, x2⟩, ⟨S1x64, x3⟩] : List ((s : Shape) × (s.Idx → α))) _ (ix2 ⟨1, hc⟩ d) 1 (by simp) S1x64 x1 rfl rfl 1 rfl (ix2 0 d) (cat_rows_off _ d) rfl
  | ⟨2, hc⟩ => exact concatenate_apply_piece 0 ([⟨S1x64, x0⟩, ⟨S1x64, x1⟩, ⟨S1x64, x2⟩, ⟨S1x64, x3⟩] : List ((s : Shape) × (s.Idx → α))) _ (ix2 ⟨2, hc⟩ d) 2 (by simp) S1x64 x2 rfl rfl 2 rfl (ix2 0 d) (cat_rows_off _ d) rfl
  | ⟨3, hc⟩ => exact concatenate_apply_piece 0 ([⟨S1x64, x0⟩, ⟨S1x64, x1⟩, ⟨S1x64, x2⟩, ⟨S1x64, x3⟩] : List ((s : Shape) × (s.Idx → α))) _ (ix2 ⟨3, hc⟩ d) 3 (by simp) S1x64 x3 rfl rfl 3 rfl (ix2 0 d) (cat_rows_off _ d) rfl

/-- Five rows stacked: row j of the stack is piece j. -/
theorem cat5_apply (x0 x1 x2 x3 x4 : S1x64.Idx → α) (c : Fin 5) (d : Fin 64) :
    concatenate S5x64 0 [⟨S1x64, x0⟩, ⟨S1x64, x1⟩, ⟨S1x64, x2⟩, ⟨S1x64, x3⟩, ⟨S1x64, x4⟩]
        concatenates_S1x64_S1x64_S1x64_S1x64_S1x64_S5x64_d0 (ix2 c d)
      = (match c with | 0 => x0 | 1 => x1 | 2 => x2 | 3 => x3 | 4 => x4) (ix2 0 d) := by
  match c with
  | ⟨0, hc⟩ => exact concatenate_apply_piece 0 ([⟨S1x64, x0⟩, ⟨S1x64, x1⟩, ⟨S1x64, x2⟩, ⟨S1x64, x3⟩, ⟨S1x64, x4⟩] : List ((s : Shape) × (s.Idx → α))) _ (ix2 ⟨0, hc⟩ d) 0 (by simp) S1x64 x0 rfl rfl 0 rfl (ix2 0 d) (cat_rows_off _ d) rfl
  | ⟨1, hc⟩ => exact concatenate_apply_piece 0 ([⟨S1x64, x0⟩, ⟨S1x64, x1⟩, ⟨S1x64, x2⟩, ⟨S1x64, x3⟩, ⟨S1x64, x4⟩] : List ((s : Shape) × (s.Idx → α))) _ (ix2 ⟨1, hc⟩ d) 1 (by simp) S1x64 x1 rfl rfl 1 rfl (ix2 0 d) (cat_rows_off _ d) rfl
  | ⟨2, hc⟩ => exact concatenate_apply_piece 0 ([⟨S1x64, x0⟩, ⟨S1x64, x1⟩, ⟨S1x64, x2⟩, ⟨S1x64, x3⟩, ⟨S1x64, x4⟩] : List ((s : Shape) × (s.Idx → α))) _ (ix2 ⟨2, hc⟩ d) 2 (by simp) S1x64 x2 rfl rfl 2 rfl (ix2 0 d) (cat_rows_off _ d) rfl
  | ⟨3, hc⟩ => exact concatenate_apply_piece 0 ([⟨S1x64, x0⟩, ⟨S1x64, x1⟩, ⟨S1x64, x2⟩, ⟨S1x64, x3⟩, ⟨S1x64, x4⟩] : List ((s : Shape) × (s.Idx → α))) _ (ix2 ⟨3, hc⟩ d) 3 (by simp) S1x64 x3 rfl rfl 3 rfl (ix2 0 d) (cat_rows_off _ d) rfl
  | ⟨4, hc⟩ => exact concatenate_apply_piece 0 ([⟨S1x64, x0⟩, ⟨S1x64, x1⟩, ⟨S1x64, x2⟩, ⟨S1x64, x3⟩, ⟨S1x64, x4⟩] : List ((s : Shape) × (s.Idx → α))) _ (ix2 ⟨4, hc⟩ d) 4 (by simp) S1x64 x4 rfl rfl 4 rfl (ix2 0 d) (cat_rows_off _ d) rfl

end Cat

/-- The folded matrix: rows 0, 1, 2 of the layer plus the rows their offsets meet; row 3 as it is. -/
theorem pay10_apply (v4 : Vec Ideal S9x64 .f32) (c : Fin 4) (d : Fin 64) :
    k0_pay10 v4 (ix2 c d) = Cert.Pillar.weff (mat v4) c d := by
  unfold k0_pay10
  refine (cat4_apply _ _ _ _ c d).trans ?_
  match c with
  | ⟨0, _⟩ =>
    show shapeCast S1x64 _ shapeCasts_S64_S1x64 (ix2 0 d) = _
    rw [cast_64_1x64, addf_apply, addf_apply, pay5_apply, pay8_apply, row_apply v4 0 (by decide)]
    rfl
  | ⟨1, _⟩ =>
    show shapeCast S1x64 _ shapeCasts_S64_S1x64 (ix2 0 d) = _
    rw [cast_64_1x64, addf_apply, addf_apply, pay6_apply, pay9_apply, row_apply v4 1 (by decide)]
    rfl
  | ⟨2, _⟩ =>
    show shapeCast S1x64 _ shapeCasts_S64_S1x64 (ix2 0 d) = _
    rw [cast_64_1x64, addf_apply, pay7_apply, row_apply v4 2 (by decide)]
    rfl
  | ⟨3, _⟩ =>
    show shapeCast S1x64 _ shapeCasts_S64_S1x64 (ix2 0 d) = _
    rw [cast_64_1x64, row_apply v4 3 (by decide)]
    rfl

/-- The offsets' matrix: rows 4 to 8 of the layer. -/
theorem pay11_apply (v4 : Vec Ideal S9x64 .f32) (j : Fin 5) (d : Fin 64) :
    k0_pay11 v4 (ix2 j d) = Cert.Pillar.wside (mat v4) j d := by
  unfold k0_pay11
  refine (cat5_apply _ _ _ _ _ j d).trans ?_
  match j with
  | ⟨0, _⟩ => show shapeCast S1x64 _ shapeCasts_S64_S1x64 (ix2 0 d) = _; rw [cast_64_1x64, pay5_apply]; rfl
  | ⟨1, _⟩ => show shapeCast S1x64 _ shapeCasts_S64_S1x64 (ix2 0 d) = _; rw [cast_64_1x64, pay6_apply]; rfl
  | ⟨2, _⟩ => show shapeCast S1x64 _ shapeCasts_S64_S1x64 (ix2 0 d) = _; rw [cast_64_1x64, pay7_apply]; rfl
  | ⟨3, _⟩ => show shapeCast S1x64 _ shapeCasts_S64_S1x64 (ix2 0 d) = _; rw [cast_64_1x64, pay8_apply]; rfl
  | ⟨4, _⟩ => show shapeCast S1x64 _ shapeCasts_S64_S1x64 (ix2 0 d) = _; rw [cast_64_1x64, pay9_apply]; rfl

end Cert.KernelIdeal.Body

end
-- ==== Proof.BodyRead2.lean ====
/-
  The per-pillar values of a block: the means of the first three channels over the 32 slots with the count clamped below
  at one, the mask of live slots (the slot's number below the count, as signed integers), and the five offset columns
  joined side by side (three means, then the voxel centre's x and y).
-/
import proofs.«136292_j60533269069953_2_alg».proof.Proof.Spec
import proofs.«136292_j60533269069953_2_alg».proof.Proof.Block
import proofs.«136292_j60533269069953_2_alg».proof.Proof.Gen.KernelIdeal.Skeleton
import proofs.«136292_j60533269069953_2_alg».proof.Proof.BodyRead1
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The bit pattern 0x3F800000 is the number one. -/
theorem one_f32 : Ideal.ofBits .f32 0x3F800000#32 = 1 := IdealRules.sign_bit.ideal_onePat .f32

/-- The means: each of the first three channels summed over the 32 slots, over the count clamped below at one. -/
theorem pay12_apply (v0 : Vec Ideal S600x32x4 .f32) (v1 : Vec Ideal S600x4 .i32) (v2 : Vec Ideal S600x1 .i32)
    (r : Fin 600) (c : Fin 3) :
    k0_pay12 v0 v2 (ix2 r c) = Cert.Pillar.meanK (blockPillar v0 v1 v2 r) ⟨c.val, by omega⟩ := by
  unfold k0_pay12
  show Ideal.div
      (multiReduction (F := Ideal) .add [1] S600x3
        (extractStridedSlice S600x32x3 ![0, 0, 0] v0 slices_S600x32x4_o0_0_0_S600x32x3) 0x00000000#32
        reduces_S600x32x3_S600x3 (.inl rfl) rfl (ix2 r c))
      (broadcastTo S600x3 (maximumf (sitofp .f32 (k0_pay4 v2)) (broadcast S600x1 (Scalar.ofBits .f32 0x3F800000#32)) : FVec Ideal S600x1 .f32)
        broadcasts_S600x1_S600x3 (ix2 r c)) = _
  have h1 : multiReduction (F := Ideal) .add [1] S600x3
        (extractStridedSlice S600x32x3 ![0, 0, 0] v0 slices_S600x32x4_o0_0_0_S600x32x3) 0x00000000#32
        reduces_S600x32x3_S600x3 (.inl rfl) rfl (ix2 r c)
      = ∑ n : Fin 32, v0 (ix3 r n ⟨c.val, by omega⟩) := by
    refine (Ideal.multiReduction_add_single _ _ reduces_S600x32x3_S600x3 (.inl rfl) rfl (ix2 r c)).trans ?_
    refine Finset.sum_congr rfl fun n _ => ?_
    exact extractStridedSlice_apply _ v0 _ _ (ix3 r n ⟨c.val, by omega⟩) (fun a => match a with
      | ⟨0, _⟩ => by show r.val = 0 + r.val; omega
      | ⟨1, _⟩ => by show n.val = 0 + n.val; omega
      | ⟨2, _⟩ => by show c.val = 0 + c.val; omega)
  have h2 : broadcastTo S600x3 (maximumf (sitofp .f32 (k0_pay4 v2)) (broadcast S600x1 (Scalar.ofBits .f32 0x3F800000#32)) : FVec Ideal S600x1 .f32)
        broadcasts_S600x1_S600x3 (ix2 r c)
      = max (((v2 (ix2 r 0)).toInt : ℝ) : EReal) 1 := by
    refine (broadcastTo_apply _ _ (ix2 r c) (ix2 r 0) (fun a => match a with
      | ⟨0, _⟩ => by show r.val = if (600 : Nat) = 1 then 0 else r.val; rw [if_neg (by decide)]
      | ⟨1, _⟩ => by show 0 = if (1 : Nat) = 1 then 0 else c.val; rw [if_pos rfl])).trans ?_
    rw [pay4_eq]
    show max (((v2 (ix2 r 0)).toInt : ℝ) : EReal) (Ideal.ofBits .f32 0x3F800000#32) = _
    rw [one_f32]
  rw [h1, h2]
  rfl

/-- The mask: one where the slot's number is below the count, as signed integers, zero elsewhere. -/
theorem mask_apply (v3 : IVec S600x1 32) (r : Fin 600) (n : Fin 32) :
    (sitofp .f32 (extui 32 (cmpi .slt (iota .tc S600x32 32 [1] iota_S600x32_d1_w32)
        (broadcastTo S600x32 v3 broadcasts_S600x1_S600x32)) natLt_1_32) : FVec Ideal S600x32 .f32) (ix2 r n)
      = if (BitVec.ofNat 32 n.val).slt (v3 (ix2 r 0)) then 1 else 0 := by
  have hb : broadcastTo S600x32 v3 broadcasts_S600x1_S600x32 (ix2 r n) = v3 (ix2 r 0) :=
    broadcastTo_apply v3 _ (ix2 r n) (ix2 r 0) (fun a => match a with
      | ⟨0, _⟩ => by show r.val = if (600 : Nat) = 1 then 0 else r.val; rw [if_neg (by decide)]
      | ⟨1, _⟩ => by show 0 = if (1 : Nat) = 1 then 0 else n.val; rw [if_pos rfl])
  have hi : iota .tc S600x32 32 [1] iota_S600x32_d1_w32 (ix2 r n) = BitVec.ofNat 32 n.val :=
    iota_single_apply .tc S600x32 32 1 iota_S600x32_d1_w32 (ix2 r n)
  show ((((BitVec.ofBool ((iota .tc S600x32 32 [1] iota_S600x32_d1_w32 (ix2 r n)).slt
      (broadcastTo S600x32 v3 broadcasts_S600x1_S600x32 (ix2 r n)))).setWidth 32).toInt : ℝ) : EReal) = _
  rw [hi, hb]
  generalize (BitVec.ofNat 32 n.val).slt (v3 (ix2 r 0)) = b
  cases b
  · have h0 : ((BitVec.ofBool false).setWidth 32).toInt = 0 := by decide
    rw [h0]; simp
  · have h1 : ((BitVec.ofBool true).setWidth 32).toInt = 1 := by decide
    rw [h1]; simp

section Cat
variable {α : Type}

/-- Off the joined axis 1, row r of a piece and of the whole agree. -/
theorem cat_cols_off {M N : Nat} (r : Fin 600) (x : Fin M) (j : Fin N) (b : Fin (⟨2, ![600, M]⟩ : Shape).rank)
    (hb : b.cast (rfl : (⟨2, ![600, M]⟩ : Shape).rank = (⟨2, ![600, N]⟩ : Shape).rank) ≠ (1 : Fin 2)) :
    ((ix2 r x) b).val = ((ix2 r j) (b.cast (rfl : (⟨2, ![600, M]⟩ : Shape).rank = (⟨2, ![600, N]⟩ : Shape).rank))).val :=
  match b, hb with
  | ⟨0, _⟩, _ => rfl
  | ⟨1, _⟩, hb => absurd rfl hb

/-- Three column blocks of widths 3, 1, 1 joined: columns 0 to 2 are the first block's, 3 and 4 the two single columns. -/
theorem cat311_apply (x : S600x3.Idx → α) (y z : S600x1.Idx → α) (r : Fin 600) (j : Fin 5) :
    concatenate S600x5 1 [⟨S600x3, x⟩, ⟨S600x1, y⟩, ⟨S600x1, z⟩] concatenates_S600x3_S600x1_S600x1_S600x5_d1 (ix2 r j)
      = (match j with | 0 => x (ix2 r 0) | 1 => x (ix2 r 1) | 2 => x (ix2 r 2) | 3 => y (ix2 r 0) | 4 => z (ix2 r 0)) := by
  match j with
  | ⟨0, hc⟩ => exact concatenate_apply_piece 1 ([⟨S600x3, x⟩, ⟨S600x1, y⟩, ⟨S600x1, z⟩] : List ((s : Shape) × (s.Idx → α))) _ (ix2 r ⟨0, hc⟩) 0 (by simp) S600x3 x rfl rfl 0 rfl (ix2 r 0) (cat_cols_off r _ _) rfl
  | ⟨1, hc⟩ => exact concatenate_apply_piece 1 ([⟨S600x3, x⟩, ⟨S600x1, y⟩, ⟨S600x1, z⟩] : List ((s : Shape) × (s.Idx → α))) _ (ix2 r ⟨1, hc⟩) 0 (by simp) S600x3 x rfl rfl 0 rfl (ix2 r 1) (cat_cols_off r _ _) rfl
  | ⟨2, hc⟩ => exact concatenate_apply_piece 1 ([⟨S600x3, x⟩, ⟨S600x1, y⟩, ⟨S600x1, z⟩] : List ((s : Shape) × (s.Idx → α))) _ (ix2 r ⟨2, hc⟩) 0 (by simp) S600x3 x rfl rfl 0 rfl (ix2 r 2) (cat_cols_off r _ _) rfl
  | ⟨3, hc⟩ => exact concatenate_apply_piece 1 ([⟨S600x3, x⟩, ⟨S600x1, y⟩, ⟨S600x1, z⟩] : List ((s : Shape) × (s.Idx → α))) _ (ix2 r ⟨3, hc⟩) 1 (by simp) S600x1 y rfl rfl 3 rfl (ix2 r 0) (cat_cols_off r _ _) rfl
  | ⟨4, hc⟩ => exact concatenate_apply_piece 1 ([⟨S600x3, x⟩, ⟨S600x1, y⟩, ⟨S600x1, z⟩] : List ((s : Shape) × (s.Idx → α))) _ (ix2 r ⟨4, hc⟩) 2 (by simp) S600x1 z rfl rfl 4 rfl (ix2 r 0) (cat_cols_off r _ _) rfl

end Cat

end Cert.KernelIdeal.Body

end
-- ==== Proof.BodyRead3.lean ====
/-
  A slot's pre-activation as the bodies compute it: the two matrix products into a zero accumulator are plain sums
  over four channels and over five offsets, the flattening of (pillar, slot) to one row index and back cancels, the
  per-pillar product and the mask are spread over slots and channels; so at slot (r, n), channel d the value is the mask
  times (points . folded rows - offsets . their rows), the specification's tiled formula of pillar r.
-/
import proofs.«136292_j60533269069953_2_alg».proof.Proof.Spec
import proofs.«136292_j60533269069953_2_alg».proof.Proof.Block
import proofs.«136292_j60533269069953_2_alg».proof.Proof.Gen.KernelIdeal.Skeleton
import proofs.«136292_j60533269069953_2_alg».proof.Proof.BodyRead2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The dimension numbers of the offsets' product, [600,5] x [5,64]. -/
abbrev dotSide : DotDims S600x5 S5x64 S600x64 := dot_S600x5_S5x64_S600x64_1_0_0_1_n_n
/-- The dimension numbers of the points' product, [19200,4] x [4,64]. -/
abbrev dotMain : DotDims S19200x4 S4x64 S19200x64 := dot_S19200x4_S4x64_S19200x64_1_0_0_1_n_n

/-! ## The two products read at an index -/

theorem D5_lhs0 (i : S600x64.Idx) (q : dotSide.contr.Idx) : (dotSide.lhsIdx i q 0).val = (i 0).val := by
  unfold DotDims.lhsIdx
  rw [dif_neg (show ¬(0 : Fin S600x5.rank) ∈ dotSide.lhsBatch by decide),
    dif_pos (show (0 : Fin S600x5.rank) ∈ dotSide.lhsNonContracting by decide)]
  rfl
theorem D5_lhs1 (i : S600x64.Idx) (q : dotSide.contr.Idx) : (dotSide.lhsIdx i q 1).val = (q ⟨0, by decide⟩).val :=
  dotSide.lhsIdx_val_of_single rfl i q
theorem D5_rhs0 (i : S600x64.Idx) (q : dotSide.contr.Idx) : (dotSide.rhsIdx i q 0).val = (q ⟨0, by decide⟩).val :=
  dotSide.rhsIdx_val_of_single rfl i q
theorem D5_rhs1 (i : S600x64.Idx) (q : dotSide.contr.Idx) : (dotSide.rhsIdx i q 1).val = (i 1).val := by
  unfold DotDims.rhsIdx
  rw [dif_neg (show ¬(1 : Fin S5x64.rank) ∈ dotSide.rhsBatch by decide),
    dif_pos (show (1 : Fin S5x64.rank) ∈ dotSide.rhsNonContracting by decide)]
  rfl

/-- The [600,5] x [5,64] product into zero, at (r, d): the sum over the five columns. -/
theorem sideProd_apply (x : FVec Ideal S600x5 .f32) (y : FVec Ideal S5x64 .f32) (r : Fin 600) (d : Fin 64) :
    matmul dotSide none x y (constant S600x64 .f32 0x00000000#32) (ix2 r d) = ∑ j : Fin 5, x (ix2 r j) * y (ix2 j d) := by
  show FloatOps.matmul dotSide none x y (constant S600x64 .f32 0x00000000#32) (ix2 r d) = _
  rw [Ideal.matmul_constant_zero_apply, ← Equiv.sum_comp (contrEquiv1 dotSide 5 rfl rfl).symm]
  refine Finset.sum_congr rfl fun k _ => ?_
  have hk := contrEquiv1_symm_val dotSide 5 rfl rfl k
  have el : dotSide.lhsIdx (ix2 r d) ((contrEquiv1 dotSide 5 rfl rfl).symm k) = ix2 r k := funext fun a => Fin.ext (by
    match a with
    | ⟨0, _⟩ => exact D5_lhs0 _ _
    | ⟨1, _⟩ => exact (D5_lhs1 _ _).trans hk)
  have er : dotSide.rhsIdx (ix2 r d) ((contrEquiv1 dotSide 5 rfl rfl).symm k) = ix2 k d := funext fun a => Fin.ext (by
    match a with
    | ⟨0, _⟩ => exact (D5_rhs0 _ _).trans hk
    | ⟨1, _⟩ => exact D5_rhs1 _ _)
  rw [el, er]

theorem D4_lhs0 (i : S19200x64.Idx) (q : dotMain.contr.Idx) : (dotMain.lhsIdx i q 0).val = (i 0).val := by
  unfold DotDims.lhsIdx
  rw [dif_neg (show ¬(0 : Fin S19200x4.rank) ∈ dotMain.lhsBatch by decide),
    dif_pos (show (0 : Fin S19200x4.rank) ∈ dotMain.lhsNonContracting by decide)]
  rfl
theorem D4_lhs1 (i : S19200x64.Idx) (q : dotMain.contr.Idx) : (dotMain.lhsIdx i q 1).val = (q ⟨0, by decide⟩).val :=
  dotMain.lhsIdx_val_of_single rfl i q
theorem D4_rhs0 (i : S19200x64.Idx) (q : dotMain.contr.Idx) : (dotMain.rhsIdx i q 0).val = (q ⟨0, by decide⟩).val :=
  dotMain.rhsIdx_val_of_single rfl i q
theorem D4_rhs1 (i : S19200x64.Idx) (q : dotMain.contr.Idx) : (dotMain.rhsIdx i q 1).val = (i 1).val := by
  unfold DotDims.rhsIdx
  rw [dif_neg (show ¬(1 : Fin S4x64.rank) ∈ dotMain.rhsBatch by decide),
    dif_pos (show (1 : Fin S4x64.rank) ∈ dotMain.rhsNonContracting by decide)]
  rfl

/-- The [19200,4] x [4,64] product into zero, at (m, d): the sum over the four channels. -/
theorem mainProd_apply (x : FVec Ideal S19200x4 .f32) (y : FVec Ideal S4x64 .f32) (m : Fin 19200) (d : Fin 64) :
    matmul dotMain none x y (constant S19200x64 .f32 0x00000000#32) (ix2 m d) = ∑ c : Fin 4, x (ix2 m c) * y (ix2 c d) := by
  show FloatOps.matmul dotMain none x y (constant S19200x64 .f32 0x00000000#32) (ix2 m d) = _
  rw [Ideal.matmul_constant_zero_apply, ← Equiv.sum_comp (contrEquiv1 dotMain 4 rfl rfl).symm]
  refine Finset.sum_congr rfl fun k _ => ?_
  have hk := contrEquiv1_symm_val dotMain 4 rfl rfl k
  have el : dotMain.lhsIdx (ix2 m d) ((contrEquiv1 dotMain 4 rfl rfl).symm k) = ix2 m k := funext fun a => Fin.ext (by
    match a with
    | ⟨0, _⟩ => exact D4_lhs0 _ _
    | ⟨1, _⟩ => exact (D4_lhs1 _ _).trans hk)
  have er : dotMain.rhsIdx (ix2 m d) ((contrEquiv1 dotMain 4 rfl rfl).symm k) = ix2 k d := funext fun a => Fin.ext (by
    match a with
    | ⟨0, _⟩ => exact (D4_rhs0 _ _).trans hk
    | ⟨1, _⟩ => exact D4_rhs1 _ _)
  rw [el, er]

/-! ## The layout operations around them -/

section Layout
variable {α : Type}

/-- Slot (r, n) of the block is row 32 r + n of the flattened block. -/
def flat (r : Fin 600) (n : Fin 32) : Fin 19200 := ⟨32 * r.val + n.val, by omega⟩

/-- The points block flattened to [19200,4] reads (r, n, c) at (32 r + n, c). -/
theorem cast_flat4 (x : S600x32x4.Idx → α) (r : Fin 600) (n : Fin 32) (c : Fin 4) :
    shapeCast S19200x4 x shapeCasts_S600x32x4_S19200x4 (ix2 (flat r n) c) = x (ix3 r n c) :=
  shapeCast_apply x _ (ix2 (flat r n) c) (ix3 r n c) (by
    rw [Shape.rowMajor_val_two, Shape.rowMajor_val_three]
    show (r.val * 32 + n.val) * 4 + c.val = (32 * r.val + n.val) * 4 + c.val
    omega)

/-- A [19200,64] result unflattened to [600,32,64] reads (32 r + n, d) at (r, n, d). -/
theorem cast_unflat64 (x : S19200x64.Idx → α) (r : Fin 600) (n : Fin 32) (d : Fin 64) :
    shapeCast S600x32x64 x shapeCasts_S19200x64_S600x32x64 (ix3 r n d) = x (ix2 (flat r n) d) :=
  shapeCast_apply x _ (ix3 r n d) (ix2 (flat r n) d) (by
    rw [Shape.rowMajor_val_two, Shape.rowMajor_val_three]
    show (32 * r.val + n.val) * 64 + d.val = (r.val * 32 + n.val) * 64 + d.val
    omega)

/-- A [600,64] array spread over the 32 slots reads (r, d) at (r, n, d). -/
theorem bcast_rows_apply (x : S600x64.Idx → α) (r : Fin 600) (n : Fin 32) (d : Fin 64) :
    broadcastTo S600x32x64 (shapeCast S600x1x64 x shapeCasts_S600x64_S600x1x64) broadcasts_S600x1x64_S600x32x64 (ix3 r n d)
      = x (ix2 r d) := by
  refine (broadcastTo_apply _ _ (ix3 r n d) (ix3 r 0 d) (fun a => match a with
    | ⟨0, _⟩ => by show r.val = if (600 : Nat) = 1 then 0 else r.val; rw [if_neg (by decide)]
    | ⟨1, _⟩ => by show 0 = if (1 : Nat) = 1 then 0 else n.val; rw [if_pos rfl]
    | ⟨2, _⟩ => by show d.val = if (64 : Nat) = 1 then 0 else d.val; rw [if_neg (by decide)])).trans ?_
  exact shapeCast_apply x _ (ix3 r 0 d) (ix2 r d) (by
    rw [Shape.rowMajor_val_two, Shape.rowMajor_val_three]
    show r.val * 64 + d.val = (r.val * 1 + 0) * 64 + d.val
    omega)

/-- A [600,32] array spread over the 64 channels reads (r, n) at (r, n, d). -/
theorem bcast_slots_apply (x : S600x32.Idx → α) (r : Fin 600) (n : Fin 32) (d : Fin 64) :
    broadcastTo S600x32x64 (shapeCast S600x32x1 x shapeCasts_S600x32_S600x32x1) broadcasts_S600x32x1_S600x32x64 (ix3 r n d)
      = x (ix2 r n) := by
  refine (broadcastTo_apply _ _ (ix3 r n d) (ix3 r n 0) (fun a => match a with
    | ⟨0, _⟩ => by show r.val = if (600 : Nat) = 1 then 0 else r.val; rw [if_neg (by decide)]
    | ⟨1, _⟩ => by show n.val = if (32 : Nat) = 1 then 0 else n.val; rw [if_neg (by decide)]
    | ⟨2, _⟩ => by show 0 = if (1 : Nat) = 1 then 0 else d.val; rw [if_pos rfl])).trans ?_
  exact shapeCast_apply x _ (ix3 r n 0) (ix2 r n) (by
    rw [Shape.rowMajor_val_two, Shape.rowMajor_val_three]
    show r.val * 32 + n.val = (r.val * 32 + n.val) * 1 + 0
    omega)

end Layout

/-! ## The statistics kernel's pre-activation -/

/-- The live-slot mask of the block. -/
def maskVec (v3 : IVec S600x1 32) : FVec Ideal S600x32 .f32 :=
  sitofp .f32 (extui 32 (cmpi .slt (iota .tc S600x32 32 [1] iota_S600x32_d1_w32)
    (broadcastTo S600x32 v3 broadcasts_S600x1_S600x32)) natLt_1_32)

/-- The x of each voxel's centre: the x coordinate times the voxel's edge, plus the offset. -/
def cxVec (v47 : IVec S600 32) : FVec Ideal S600 .f32 :=
  addf (mulf (sitofp .f32 v47) (broadcast S600 (Scalar.ofBits .f32 0x3E23D70A#32)))
    (broadcast S600 (Scalar.ofBits .f32 0x3DA3D70A#32))

/-- The y of each voxel's centre, from column 2 of the coordinates. -/
def cyVec (v1 : Vec Ideal S600x4 .i32) : FVec Ideal S600 .f32 :=
  addf (mulf (sitofp .f32 (shapeCast S600 (extractStridedSlice S600x1 ![0, 2] v1 slices_S600x4_o0_2_S600x1)
      shapeCasts_S600x1_S600)) (broadcast S600 (Scalar.ofBits .f32 0x3E23D70A#32)))
    (broadcast S600 (Scalar.ofBits .f32 0xC21E6666#32))

/-- The five offsets of each pillar: the three means, then the centre's x and y. -/
def sideVec (v1 : Vec Ideal S600x4 .i32) (v45 : FVec Ideal S600x3 .f32) (v47 : IVec S600 32) : FVec Ideal S600x5 .f32 :=
  concatenate S600x5 1 [⟨S600x3, v45⟩, ⟨S600x1, shapeCast S600x1 (cxVec v47) shapeCasts_S600_S600x1⟩,
    ⟨S600x1, shapeCast S600x1 (cyVec v1) shapeCasts_S600_S600x1⟩] concatenates_S600x3_S600x1_S600x1_S600x5_d1

/-- The pre-activation as the kernel writes it: the mask times (points . folded rows - offsets . their rows). -/
theorem pay1_eq (v0 : Vec Ideal S600x32x4 .f32) (v1 : Vec Ideal S600x4 .i32) (v3 : IVec S600x1 32)
    (v32 : FVec Ideal S4x64 .f32) (v38 : FVec Ideal S5x64 .f32) (v45 : FVec Ideal S600x3 .f32) (v47 : IVec S600 32) :
    k0_pay1 v0 v1 v3 v32 v38 v45 v47
      = mulf (broadcastTo S600x32x64 (shapeCast S600x32x1 (maskVec v3) shapeCasts_S600x32_S600x32x1)
            broadcasts_S600x32x1_S600x32x64)
          (subf (shapeCast S600x32x64 (matmul (φ₁ := .f32) (φ₂ := .f32) dotMain none (shapeCast S19200x4 v0 shapeCasts_S600x32x4_S19200x4) v32
              (constant S19200x64 .f32 0x00000000#32)) shapeCasts_S19200x64_S600x32x64)
            (broadcastTo S600x32x64 (shapeCast S600x1x64 (matmul dotSide none (sideVec v1 v45 v47) v38
              (constant S600x64 .f32 0x00000000#32)) shapeCasts_S600x64_S600x1x64) broadcasts_S600x1x64_S600x32x64)) := rfl

/-- The block's offsets at (r, j) are pillar r's. -/
theorem sideVec_apply (v0 : Vec Ideal S600x32x4 .f32) (v1 : Vec Ideal S600x4 .i32) (v2 : Vec Ideal S600x1 .i32)
    (r : Fin 600) (j : Fin 5) :
    sideVec v1 (k0_pay12 v0 v2) (k0_pay13 v1) (ix2 r j) = Cert.Pillar.side (blockPillar v0 v1 v2 r) j := by
  unfold sideVec
  refine (cat311_apply _ _ _ r j).trans ?_
  match j with
  | ⟨0, _⟩ => exact pay12_apply v0 v1 v2 r 0
  | ⟨1, _⟩ => exact pay12_apply v0 v1 v2 r 1
  | ⟨2, _⟩ => exact pay12_apply v0 v1 v2 r 2
  | ⟨3, _⟩ =>
    show shapeCast S600x1 (cxVec (k0_pay13 v1)) shapeCasts_S600_S600x1 (ix2 r 0) = _
    rw [cast_600_600x1]
    show (((k0_pay13 v1 (ix1 r)).toInt : ℝ) : EReal) * Ideal.ofBits .f32 0x3E23D70A#32
      + Ideal.ofBits .f32 0x3DA3D70A#32 = _
    rw [pay13_apply]
    rfl
  | ⟨4, _⟩ =>
    show shapeCast S600x1 (cyVec v1) shapeCasts_S600_S600x1 (ix2 r 0) = _
    rw [cast_600_600x1]
    show (((shapeCast S600 (extractStridedSlice S600x1 ![0, 2] v1 slices_S600x4_o0_2_S600x1)
        shapeCasts_S600x1_S600 (ix1 r)).toInt : ℝ) : EReal) * Ideal.ofBits .f32 0x3E23D70A#32
      + Ideal.ofBits .f32 0xC21E6666#32 = _
    rw [col2_apply]
    rfl

/-- The block's mask at (r, n) is pillar r's. -/
theorem maskVec_apply (v0 : Vec Ideal S600x32x4 .f32) (v1 : Vec Ideal S600x4 .i32) (v2 : Vec Ideal S600x1 .i32)
    (r : Fin 600) (n : Fin 32) :
    maskVec (k0_pay4 v2) (ix2 r n) = Cert.Pillar.msk (blockPillar v0 v1 v2 r) n := by
  unfold maskVec
  rw [mask_apply, pay4_eq]
  rfl

/-- **The statistics kernel's pre-activation at slot (r, n), channel d** is the tiled formula of pillar r. -/
theorem pre_apply (v0 : Vec Ideal S600x32x4 .f32) (v1 : Vec Ideal S600x4 .i32) (v2 : Vec Ideal S600x1 .i32)
    (v4 : Vec Ideal S9x64 .f32) (r : Fin 600) (n : Fin 32) (d : Fin 64) :
    k0_pay1 v0 v1 (k0_pay4 v2) (k0_pay10 v4) (k0_pay11 v4) (k0_pay12 v0 v2) (k0_pay13 v1) (ix3 r n d)
      = Cert.Pillar.preK (blockPillar v0 v1 v2 r) (mat v4) n d := by
  rw [pay1_eq, mulf_apply, subf_apply, bcast_slots_apply, cast_unflat64, bcast_rows_apply, mainProd_apply,
    sideProd_apply, maskVec_apply v0 v1 v2]
  refine congrArg₂ (· * ·) rfl (congrArg₂ (· - ·) (Finset.sum_congr rfl fun c _ => ?_) (Finset.sum_congr rfl fun j _ => ?_))
  · rw [cast_flat4, pay10_apply]
    rfl
  · rw [sideVec_apply, pay11_apply]

end Cert.KernelIdeal.Body

end
-- ==== Proof.BodyRead4.lean ====
/-
  The statistics body's two stores: the sum over the first two axes of a 600 x 32 x 64 array at channel d is the double
  sum over pillars and slots (an index reduces to d exactly when its last coordinate is d), so the block's partial sum and
  partial sum of squares at channel d are those double sums of the tiled pre-activation and of its square.
-/
import proofs.«136292_j60533269069953_2_alg».proof.Proof.Spec
import proofs.«136292_j60533269069953_2_alg».proof.Proof.Block
import proofs.«136292_j60533269069953_2_alg».proof.Proof.Gen.KernelIdeal.Skeleton
import proofs.«136292_j60533269069953_2_alg».proof.Proof.BodyRead3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The sum over every slot of the block -/

/-- Dropping the first two coordinates of (r, n, d) leaves d. -/
theorem drop01_ix3 (r : Fin 600) (n : Fin 32) (d : Fin 64) :
    reduces_S600x32x64_S64.drop (ix3 r n d) = ix1 d := by
  funext b
  match b with
  | ⟨0, _⟩ => exact Fin.ext (Shape.Reduces.drop_apply_val_of_eq reduces_S600x32x64_S64 (ix3 r n d) 0 2)

/-- An index that drops to d is (its first coordinate, its second, d). -/
theorem eq_ix3_of_drop01 (i : S600x32x64.Idx) (d : Fin 64) (h : reduces_S600x32x64_S64.drop i = ix1 d) :
    (ix3 (i 0) (i 1) d : S600x32x64.Idx) = i := by
  have h2 : (i 2).val = d.val := by
    have e : (reduces_S600x32x64_S64.drop i 0).val = d.val := congrArg (fun j : S64.Idx => (j 0).val) h
    exact (Shape.Reduces.drop_apply_val_of_eq reduces_S600x32x64_S64 i 0 2).symm.trans e
  funext a
  match a with
  | ⟨0, _⟩ => rfl
  | ⟨1, _⟩ => rfl
  | ⟨2, _⟩ => exact Fin.ext h2.symm

/-- The sum over the first two axes of a [600,32,64] array, at channel d: the double sum over pillars and slots. -/
theorem sum01_apply (X : FVec Ideal S600x32x64 .f32) (d : Fin 64) :
    multiReduction (F := Ideal) .add [0, 1] S64 X 0x00000000#32 reduces_S600x32x64_S64 (.inl rfl) rfl (ix1 d)
      = ∑ r : Fin 600, ∑ n : Fin 32, X (ix3 r n d) := by
  show Ideal.reduceAdd reduces_S600x32x64_S64 X (ix1 d) = _
  unfold Ideal.reduceAdd
  refine Eq.trans ?_ (Fintype.sum_prod_type' (fun (r : Fin 600) (n : Fin 32) => X (ix3 r n d)))
  refine Finset.sum_nbij' (fun i : S600x32x64.Idx => ((i 0, i 1) : Fin 600 × Fin 32))
    (fun p : Fin 600 × Fin 32 => (ix3 p.1 p.2 d : S600x32x64.Idx)) ?_ ?_ ?_ ?_ ?_
  · intro i _; exact Finset.mem_univ _
  · intro p _; exact Finset.mem_filter.2 ⟨Finset.mem_univ _, drop01_ix3 p.1 p.2 d⟩
  · intro i hi; exact eq_ix3_of_drop01 i d (Finset.mem_filter.1 hi).2
  · intro p _; rfl
  · intro i hi; exact congrArg X (eq_ix3_of_drop01 i d (Finset.mem_filter.1 hi).2).symm

/-- A [64] vector viewed as [1,1,64] reads d at (0, 0, d). -/
theorem cast_64_1x1x64 {α : Type} (x : S64.Idx → α) (d : Fin 64) :
    shapeCast S1x1x64 x shapeCasts_S64_S1x1x64 (ix3 (0 : Fin 1) (0 : Fin 1) d) = x (ix1 d) :=
  shapeCast_apply x _ (ix3 (0 : Fin 1) (0 : Fin 1) d) (ix1 d) (by
    rw [Shape.rowMajor_val_one, Shape.rowMajor_val_three]
    show d.val = (0 * 1 + 0) * 64 + d.val
    omega)

/-- **The block's partial sum at channel d**: the sum over its 600 pillars and 32 slots of the tiled pre-activation. -/
theorem sum_apply (v0 : Vec Ideal S600x32x4 .f32) (v1 : Vec Ideal S600x4 .i32) (v2 : Vec Ideal S600x1 .i32)
    (v4 : Vec Ideal S9x64 .f32) (d : Fin 64) :
    k0_pay2 v0 v1 (k0_pay4 v2) (k0_pay10 v4) (k0_pay11 v4) (k0_pay12 v0 v2) (k0_pay13 v1) (ix3 (0 : Fin 1) (0 : Fin 1) d)
      = ∑ r : Fin 600, ∑ n : Fin 32, Cert.Pillar.preK (blockPillar v0 v1 v2 r) (mat v4) n d := by
  unfold k0_pay2
  show shapeCast S1x1x64 (multiReduction (F := Ideal) .add [0, 1] S64
      (k0_pay1 v0 v1 (k0_pay4 v2) (k0_pay10 v4) (k0_pay11 v4) (k0_pay12 v0 v2) (k0_pay13 v1)) 0x00000000#32
      reduces_S600x32x64_S64 (.inl rfl) rfl) shapeCasts_S64_S1x1x64 (ix3 (0 : Fin 1) (0 : Fin 1) d) = _
  rw [cast_64_1x1x64, sum01_apply]
  exact Finset.sum_congr rfl fun r _ => Finset.sum_congr rfl fun n _ => pre_apply v0 v1 v2 v4 r n d

/-- **The block's partial sum of squares at channel d.** -/
theorem sq_apply (v0 : Vec Ideal S600x32x4 .f32) (v1 : Vec Ideal S600x4 .i32) (v2 : Vec Ideal S600x1 .i32)
    (v4 : Vec Ideal S9x64 .f32) (d : Fin 64) :
    k0_pay3 v0 v1 (k0_pay4 v2) (k0_pay10 v4) (k0_pay11 v4) (k0_pay12 v0 v2) (k0_pay13 v1) (ix3 (0 : Fin 1) (0 : Fin 1) d)
      = ∑ r : Fin 600, ∑ n : Fin 32, Cert.Pillar.preK (blockPillar v0 v1 v2 r) (mat v4) n d
          * Cert.Pillar.preK (blockPillar v0 v1 v2 r) (mat v4) n d := by
  unfold k0_pay3
  show shapeCast S1x1x64 (multiReduction (F := Ideal) .add [0, 1] S64
      (mulf (k0_pay1 v0 v1 (k0_pay4 v2) (k0_pay10 v4) (k0_pay11 v4) (k0_pay12 v0 v2) (k0_pay13 v1))
        (k0_pay1 v0 v1 (k0_pay4 v2) (k0_pay10 v4) (k0_pay11 v4) (k0_pay12 v0 v2) (k0_pay13 v1))) 0x00000000#32
      reduces_S600x32x64_S64 (.inl rfl) rfl) shapeCasts_S64_S1x1x64 (ix3 (0 : Fin 1) (0 : Fin 1) d) = _
  rw [cast_64_1x1x64, sum01_apply]
  refine Finset.sum_congr rfl fun r _ => Finset.sum_congr rfl fun n _ => ?_
  rw [mulf_apply, pre_apply]

end Cert.KernelIdeal.Body

end
-- ==== Proof.Region0.lean ====
/-
  The statistics region, read: at grid point t the body's two stores are the sums, over the 600 pillars of tile t and
  their 32 slots, of the pre-activations of each channel and of their squares; point t's block of either output is
  entry (t, 0, .), the blocks cover the arrays, so after the region the two arrays hold the per-tile sums.
-/
import proofs.«136292_j60533269069953_2_alg».proof.Proof.Entry0
import proofs.«136292_j60533269069953_2_alg».proof.Proof.MidStats
import proofs.«136292_j60533269069953_2_alg».proof.Proof.BodyRead4

set_option maxRecDepth 16384

noncomputable section

namespace Cert.KernelIdeal.Stats

open Cert.KernelIdeal Cert.KernelIdeal.Gen Cert.KernelIdeal.Body
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- Where block t of a partial-sum array sits: tile t, channel d. -/
theorem emb4_0 (t : Fin cfg0.N) (d : Fin 64) :
    (((cfg0.win 4).blk t).view.emb (ix3 (0 : Fin 1) (0 : Fin 1) d)) 0 = tile t := Fin.ext (by
  obtain ⟨-, -, -, -, -, -, -, -, -, e0, -⟩ := idx0 t
  show win0_4.index t (0 : Fin 3) * 1 + 1 * 0 = t.val; omega)
theorem emb4_2 (t : Fin cfg0.N) (d : Fin 64) :
    (((cfg0.win 4).blk t).view.emb (ix3 (0 : Fin 1) (0 : Fin 1) d)) 2 = d := Fin.ext (by
  obtain ⟨-, -, -, -, -, -, -, -, -, -, -, e2, -⟩ := idx0 t
  show win0_4.index t (2 : Fin 3) * 64 + 1 * d.val = d.val; omega)
theorem emb5_0 (t : Fin cfg0.N) (d : Fin 64) :
    (((cfg0.win 5).blk t).view.emb (ix3 (0 : Fin 1) (0 : Fin 1) d)) 0 = tile t := Fin.ext (by
  obtain ⟨-, -, -, -, -, -, -, -, -, -, -, -, e0, -⟩ := idx0 t
  show win0_5.index t (0 : Fin 3) * 1 + 1 * 0 = t.val; omega)
theorem emb5_2 (t : Fin cfg0.N) (d : Fin 64) :
    (((cfg0.win 5).blk t).view.emb (ix3 (0 : Fin 1) (0 : Fin 1) d)) 2 = d := Fin.ext (by
  obtain ⟨-, -, -, -, -, -, -, -, -, -, -, -, -, -, e2⟩ := idx0 t
  show win0_5.index t (2 : Fin 3) * 64 + 1 * d.val = d.val; omega)

/-- What point t writes back to the first output is block t of the array of per-tile sums. -/
theorem flushed4_eq (c : Dev nD) (t : Fin cfg0.N) :
    (dat0 (V1 m ρ) c).flushed 4 t = ((cfg0.win 4).blk t).view.read (Elt Ideal) (Mid.sums (args m c)) := by
  show (cfg0.win 4).cut (grid0.coords t) ((dat0 (V1 m ρ) c).after 4 t) = _
  rw [after0_4]
  unfold out0_4
  rw [View.canon_unit_zero hz3]
  simp only [View.ld_unit_zero (S := S600x32x4) hz3, View.ld_unit_zero (S := S600x4) hz2, View.ld_unit_zero (S := S600x1) hz2, View.ld_unit_zero (S := S9x64) hz2]
  funext j
  obtain ⟨a, b, d, rfl⟩ : ∃ (a : Fin 1) (b : Fin 1) (d : Fin 64), j = ix3 a b d := ⟨j 0, j 1, j 2, eq_ix3 j⟩
  obtain rfl : a = 0 := Subsingleton.elim _ _
  obtain rfl : b = 0 := Subsingleton.elim _ _
  refine (sum_apply (iblk0 (V1 m ρ) c 0 t) (iblk0 (V1 m ρ) c 1 t) (iblk0 (V1 m ρ) c 2 t) (iblk0 (V1 m ρ) c 3 t) d).trans ?_
  simp only [blockPillar0 m ρ c t, mat0 m ρ c t]
  show _ = Cert.Pillar.tileSum (args m c) ((((cfg0.win 4).blk t).view.emb (ix3 (0 : Fin 1) (0 : Fin 1) d)) 0) ((((cfg0.win 4).blk t).view.emb (ix3 (0 : Fin 1) (0 : Fin 1) d)) 2)
  rw [emb4_0, emb4_2]
  rfl

/-- ... and to the second, block t of the array of per-tile sums of squares. -/
theorem flushed5_eq (c : Dev nD) (t : Fin cfg0.N) :
    (dat0 (V1 m ρ) c).flushed 5 t = ((cfg0.win 5).blk t).view.read (Elt Ideal) (Mid.sqs (args m c)) := by
  show (cfg0.win 5).cut (grid0.coords t) ((dat0 (V1 m ρ) c).after 5 t) = _
  rw [after0_5]
  unfold out0_5
  rw [View.canon_unit_zero hz3]
  simp only [View.ld_unit_zero (S := S600x32x4) hz3, View.ld_unit_zero (S := S600x4) hz2, View.ld_unit_zero (S := S600x1) hz2, View.ld_unit_zero (S := S9x64) hz2]
  funext j
  obtain ⟨a, b, d, rfl⟩ : ∃ (a : Fin 1) (b : Fin 1) (d : Fin 64), j = ix3 a b d := ⟨j 0, j 1, j 2, eq_ix3 j⟩
  obtain rfl : a = 0 := Subsingleton.elim _ _
  obtain rfl : b = 0 := Subsingleton.elim _ _
  refine (sq_apply (iblk0 (V1 m ρ) c 0 t) (iblk0 (V1 m ρ) c 1 t) (iblk0 (V1 m ρ) c 2 t) (iblk0 (V1 m ρ) c 3 t) d).trans ?_
  simp only [blockPillar0 m ρ c t, mat0 m ρ c t]
  show _ = Cert.Pillar.tileSq (args m c) ((((cfg0.win 5).blk t).view.emb (ix3 (0 : Fin 1) (0 : Fin 1) d)) 0) ((((cfg0.win 5).blk t).view.emb (ix3 (0 : Fin 1) (0 : Fin 1) d)) 2)
  rw [emb5_0, emb5_2]
  rfl

/-- An index of a partial-sum array is in point t's block iff each coordinate is in the block's range. -/
theorem mem_blk4 (t : Fin cfg0.N) (i : S50x1x64.Idx) :
    i ∈ ((cfg0.win 4).blk t).view.set ↔ ∀ a : Fin 3, win0_4.index t a * S1x1x64.size a ≤ (i a).val ∧ (i a).val < win0_4.index t a * S1x1x64.size a + S1x1x64.size a := by
  show i ∈ ((View.whole main_v1_0).slice (win0_4.rect t)).set ↔ _
  rw [View.set_slice_whole, Rect.mem_set_unit]
  exact Iff.rfl
theorem mem_blk5 (t : Fin cfg0.N) (i : S50x1x64.Idx) :
    i ∈ ((cfg0.win 5).blk t).view.set ↔ ∀ a : Fin 3, win0_5.index t a * S1x1x64.size a ≤ (i a).val ∧ (i a).val < win0_5.index t a * S1x1x64.size a + S1x1x64.size a := by
  show i ∈ ((View.whole main_v1_1).slice (win0_5.rect t)).set ↔ _
  rw [View.set_slice_whole, Rect.mem_set_unit]
  exact Iff.rfl

/-- Every entry (t, 0, d) is written by point t. -/
theorem cover4 (i : S50x1x64.Idx) : ∃ t : Fin cfg0.N, (cfg0.win 4).flush t = true ∧ i ∈ ((cfg0.win 4).blk t).view.set := by
  have hi0 : (i 0).val < 50 := (i 0).isLt
  have hi1 : (i 1).val < 1 := (i 1).isLt
  have hi2 : (i 2).val < 64 := (i 2).isLt
  obtain ⟨t, ht⟩ : ∃ t : Fin cfg0.N, t.val = (i 0).val := ⟨⟨(i 0).val, lt_of_lt_of_eq hi0 N_0.symm⟩, rfl⟩
  refine ⟨t, flush0_4 t, ?_⟩
  rw [mem_blk4]
  obtain ⟨-, -, -, -, -, -, -, -, -, e0, e1, e2, -⟩ := idx0 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 64 ≤ (i 2).val ∧ (i 2).val < win0_4.index t (2 : Fin 3) * 64 + 64; omega
theorem cover5 (i : S50x1x64.Idx) : ∃ t : Fin cfg0.N, (cfg0.win 5).flush t = true ∧ i ∈ ((cfg0.win 5).blk t).view.set := by
  have hi0 : (i 0).val < 50 := (i 0).isLt
  have hi1 : (i 1).val < 1 := (i 1).isLt
  have hi2 : (i 2).val < 64 := (i 2).isLt
  obtain ⟨t, ht⟩ : ∃ t : Fin cfg0.N, t.val = (i 0).val := ⟨⟨(i 0).val, lt_of_lt_of_eq hi0 N_0.symm⟩, rfl⟩
  refine ⟨t, flush0_5 t, ?_⟩
  rw [mem_blk5]
  obtain ⟨-, -, -, -, -, -, -, -, -, -, -, -, e0, e1, e2⟩ := idx0 t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 64 ≤ (i 2).val ∧ (i 2).val < win0_5.index t (2 : Fin 3) * 64 + 64; omega

/-- After the statistics region the two output arrays hold the per-tile sums and sums of squares. -/
theorem final4 (c : Dev nD) : (dat0 (V1 m ρ) c).arrAt 4 cfg0.N = Mid.sums (args m c) :=
  (dat0 (V1 m ρ) c).arrAt_eq_of_cover 4 (Mid.sums (args m c)) (fun t _ => flushed4_eq m ρ c t) cover4
theorem final5 (c : Dev nD) : (dat0 (V1 m ρ) c).arrAt 5 cfg0.N = Mid.sqs (args m c) :=
  (dat0 (V1 m ρ) c).arrAt_eq_of_cover 5 (Mid.sqs (args m c)) (fun t _ => flushed5_eq m ρ c t) cover5

end Cert.KernelIdeal.Stats

end
-- ==== Proof.BodyRead5.lean ====
/-
  The final body's store: its loop-invariant values are the statistics body's word for word; the scale and shift rows
  are spread over every pillar and slot; and the maximum over the slot axis from minus infinity is the fold of max over the
  32 slots, so at pillar r, channel d the result is the maximum over the slots of max (pre-activation * scale + shift) 0.
-/
import proofs.«136292_j60533269069953_2_alg».proof.Proof.Spec
import proofs.«136292_j60533269069953_2_alg».proof.Proof.Block
import proofs.«136292_j60533269069953_2_alg».proof.Proof.Gen.KernelIdeal.Skeleton
import proofs.«136292_j60533269069953_2_alg».proof.Proof.BodyRead4
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The final kernel's result -/

/-- The bit pattern 0xFF800000 is minus infinity. -/
theorem bot_f32 : Ideal.ofBits .f32 0xFF800000#32 = ⊥ := by simp [Ideal.ofBits, Ideal.ieee]

/-- The final kernel's loop-invariant values are the statistics kernel's, word for word. -/
theorem k1_pay1_eq (v2 : Vec Ideal S600x1 .i32) : k1_pay1 v2 = k0_pay4 v2 := rfl
theorem k1_pay7_eq (v4 : Vec Ideal S9x64 .f32) : k1_pay7 v4 = k0_pay10 v4 := rfl
theorem k1_pay8_eq (v4 : Vec Ideal S9x64 .f32) : k1_pay8 v4 = k0_pay11 v4 := rfl
theorem k1_pay9_eq (v0 : Vec Ideal S600x32x4 .f32) (v2 : Vec Ideal S600x1 .i32) : k1_pay9 v0 v2 = k0_pay12 v0 v2 := rfl
theorem k1_pay10_eq (v1 : Vec Ideal S600x4 .i32) : k1_pay10 v1 = k0_pay13 v1 := rfl

/-- The final kernel's result as it writes it: the maximum over the slots of the pre-activation scaled, shifted and
    clamped below at zero. -/
theorem pay11_eq (v0 : Vec Ideal S600x32x4 .f32) (v1 : Vec Ideal S600x4 .i32) (v3 : IVec S600x1 32)
    (v32 : FVec Ideal S4x64 .f32) (v38 : FVec Ideal S5x64 .f32) (v45 : FVec Ideal S600x3 .f32) (v47 : IVec S600 32)
    (v78 v81 : Vec Ideal S1x64 .f32) :
    k1_pay11 v0 v1 v3 v32 v38 v45 v47 v78 v81
      = multiReduction (F := Ideal) .maximumf [1] S600x64
          (maximumf (addf (mulf (k0_pay1 v0 v1 v3 v32 v38 v45 v47)
              (broadcastTo S600x32x64 (shapeCast S1x1x64 (shapeCast S1x64 v78 shapeCasts_S1x64_S1x64)
                shapeCasts_S1x64_S1x1x64) broadcasts_S1x1x64_S600x32x64))
            (broadcastTo S600x32x64 (shapeCast S1x1x64 (shapeCast S1x64 v81 shapeCasts_S1x64_S1x64)
              shapeCasts_S1x64_S1x1x64) broadcasts_S1x1x64_S600x32x64))
            (broadcast S600x32x64 (Scalar.ofBits .f32 0x00000000#32)))
          0xFF800000#32 reduces_S600x32x64_S600x64 (.inl rfl) rfl := rfl

/-- A [1,64] row spread over every pillar and slot reads (0, d) at (r, n, d). -/
theorem bcast_row_apply {α : Type} (x : S1x64.Idx → α) (r : Fin 600) (n : Fin 32) (d : Fin 64) :
    broadcastTo S600x32x64 (shapeCast S1x1x64 (shapeCast S1x64 x shapeCasts_S1x64_S1x64) shapeCasts_S1x64_S1x1x64)
        broadcasts_S1x1x64_S600x32x64 (ix3 r n d)
      = x (ix2 0 d) := by
  refine (broadcastTo_apply _ _ (ix3 r n d) (ix3 (0 : Fin 1) (0 : Fin 1) d) (fun a => match a with
    | ⟨0, _⟩ => by show 0 = if (1 : Nat) = 1 then 0 else r.val; rw [if_pos rfl]
    | ⟨1, _⟩ => by show 0 = if (1 : Nat) = 1 then 0 else n.val; rw [if_pos rfl]
    | ⟨2, _⟩ => by show d.val = if (64 : Nat) = 1 then 0 else d.val; rw [if_neg (by decide)])).trans ?_
  refine (shapeCast_apply _ _ (ix3 (0 : Fin 1) (0 : Fin 1) d) (ix2 (0 : Fin 1) d) (by
    rw [Shape.rowMajor_val_two, Shape.rowMajor_val_three]
    show 0 * 64 + d.val = (0 * 1 + 0) * 64 + d.val
    omega)).trans ?_
  rw [shapeCast_self]

/-- The maximum over the slots of a [600,32,64] array from minus infinity, at (r, d). -/
theorem rowMax_apply (X : FVec Ideal S600x32x64 .f32) (r : Fin 600) (d : Fin 64) :
    multiReduction (F := Ideal) .maximumf [1] S600x64 X 0xFF800000#32 reduces_S600x32x64_S600x64 (.inl rfl) rfl (ix2 r d)
      = Cert.Pillar.rowMax fun n => X (ix3 r n d) := by
  refine (Ideal.multiReduction_maximumf_single X _ reduces_S600x32x64_S600x64 (.inl rfl) rfl (ix2 r d)).trans ?_
  show (Finset.univ : Finset (Fin 32)).fold max (Ideal.ofBits .f32 0xFF800000#32)
      (X ∘ reduces_S600x32x64_S600x64.lift (ix2 r d)) = _
  rw [bot_f32]
  unfold Cert.Pillar.rowMax
  refine congrArg (fun f => (Finset.univ : Finset (Fin 32)).fold max ⊥ f) (funext fun n => congrArg X (funext fun a => Fin.ext ?_))
  match a with
  | ⟨0, _⟩ => rfl
  | ⟨1, _⟩ => rfl
  | ⟨2, _⟩ => rfl

/-- **The final kernel's result at pillar r, channel d**: the maximum over the pillar's slots of the tiled
    pre-activation times the scale plus the shift, clamped below at zero. -/
theorem out_apply (v0 : Vec Ideal S600x32x4 .f32) (v1 : Vec Ideal S600x4 .i32) (v2 : Vec Ideal S600x1 .i32)
    (v4 : Vec Ideal S9x64 .f32) (v78 v81 : Vec Ideal S1x64 .f32) (r : Fin 600) (d : Fin 64) :
    k1_pay11 v0 v1 (k1_pay1 v2) (k1_pay7 v4) (k1_pay8 v4) (k1_pay9 v0 v2) (k1_pay10 v1) v78 v81 (ix2 r d)
      = Cert.Pillar.rowMax fun n =>
          max (Cert.Pillar.preK (blockPillar v0 v1 v2 r) (mat v4) n d * v78 (ix2 0 d) + v81 (ix2 0 d)) 0 := by
  rw [k1_pay1_eq, k1_pay7_eq, k1_pay8_eq, k1_pay9_eq, k1_pay10_eq, pay11_eq, rowMax_apply]
  refine congrArg Cert.Pillar.rowMax (funext fun n => ?_)
  rw [maximumf_apply, addf_apply, mulf_apply, bcast_row_apply, bcast_row_apply, pre_apply]
  show max _ (Ideal.ofBits .f32 0x00000000#32) = _
  rw [Ideal.ofBits_zero_f32]

end Cert.KernelIdeal.Body

end
-- ==== Proof.Region1.lean ====
/-
  The final region, read: at grid point t the body's one store is, for each of the 600 pillars of tile t and each
  channel, the maximum over the pillar's 32 slots of relu (pre-activation * scale + shift), with the scale and shift
  rows the host arithmetic computed from the per-tile sums. Point t's block of the result is rows 600 t .. 600 t + 599;
  the blocks cover the result, which is therefore the tiled arrangement's function of the launch arrays.
-/
import proofs.«136292_j60533269069953_2_alg».proof.Proof.Entry1
import proofs.«136292_j60533269069953_2_alg».proof.Proof.Region0
import proofs.«136292_j60533269069953_2_alg».proof.Proof.BodyRead5

set_option maxRecDepth 16384

noncomputable section

namespace Cert.KernelIdeal.Final

open Cert.KernelIdeal Cert.KernelIdeal.Gen Cert.KernelIdeal.Body Cert.KernelIdeal.Stats
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The tile a grid point of the final region works on. -/
def tile1 (t : Fin cfg1.N) : Fin 50 := ⟨t.val, lt_of_lt_of_eq t.isLt N_1⟩

/-- The printed index maps of the final region, decided over the grid. -/
theorem idx1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem blk1_X (c : Dev nD) (t : Fin cfg1.N) (r : Fin 600) (n : Fin 32) (k : Fin 4) :
    iblk1 (V3 m ρ) c 0 t (ix3 r n k) = (args m c).X (ix3 (Cert.Pillar.row (tile1 t) r) n k) := by
  show V3 m ρ c main_arg0 (((cfg1.win 0).blk t).view.emb (ix3 r n k)) = _
  rw [V3_arg0]
  show m ((c : Thread nD τ).loc main_arg0) _ = m ((c : Thread nD τ).loc main_arg0) _
  refine congrArg _ (funext fun a => Fin.ext ?_)
  obtain ⟨e0, e1, e2, -⟩ := idx1 t
  match a with
  | ⟨0, _⟩ => show win1_0.index t (0 : Fin 3) * 600 + 1 * r.val = 600 * t.val + r.val; omega
  | ⟨1, _⟩ => show win1_0.index t (1 : Fin 3) * 32 + 1 * n.val = n.val; omega
  | ⟨2, _⟩ => show win1_0.index t (2 : Fin 3) * 4 + 1 * k.val = k.val; omega

theorem blk1_C (c : Dev nD) (t : Fin cfg1.N) (r : Fin 600) (k : Fin 4) :
    iblk1 (V3 m ρ) c 1 t (ix2 r k) = (args m c).CO (ix2 (Cert.Pillar.row (tile1 t) r) k) := by
  show V3 m ρ c main_arg2 (((cfg1.win 1).blk t).view.emb (ix2 r k)) = _
  rw [V3_arg2]
  show m ((c : Thread nD τ).loc main_arg2) _ = m ((c : Thread nD τ).loc main_arg2) _
  refine congrArg _ (funext fun a => Fin.ext ?_)
  obtain ⟨-, -, -, e0, e1, -⟩ := idx1 t
  match a with
  | ⟨0, _⟩ => show win1_1.index t (0 : Fin 2) * 600 + 1 * r.val = 600 * t.val + r.val; omega
  | ⟨1, _⟩ => show win1_1.index t (1 : Fin 2) * 4 + 1 * k.val = k.val; omega

theorem blk1_N (c : Dev nD) (t : Fin cfg1.N) (r : Fin 600) :
    iblk1 (V3 m ρ) c 2 t (ix2 r (0 : Fin 1)) = (args m c).NP (ix1 (Cert.Pillar.row (tile1 t) r)) := by
  show V3 m ρ c main_v0 (((cfg1.win 2).blk t).view.emb (ix2 r (0 : Fin 1))) = _
  rw [V3_v0]
  refine Eq.trans ?_ (V1_v0_apply m ρ c (Cert.Pillar.row (tile1 t) r))
  refine congrArg (V1 m ρ c main_v0 : S30000x1.Idx → BitVec 32) (funext fun a => Fin.ext ?_)
  obtain ⟨-, -, -, -, -, e0, e1, -⟩ := idx1 t
  match a with
  | ⟨0, _⟩ => show win1_2.index t (0 : Fin 2) * 600 + 1 * r.val = 600 * t.val + r.val; omega
  | ⟨1, _⟩ => show win1_2.index t (1 : Fin 2) * 1 + 1 * 0 = 0; omega

theorem blk1_W (c : Dev nD) (t : Fin cfg1.N) (k : Fin 9) (d : Fin 64) :
    iblk1 (V3 m ρ) c 3 t (ix2 k d) = (args m c).W (ix2 k d) := by
  show V3 m ρ c main_arg3 (((cfg1.win 3).blk t).view.emb (ix2 k d)) = _
  rw [V3_arg3]
  show m ((c : Thread nD τ).loc main_arg3) _ = m ((c : Thread nD τ).loc main_arg3) _
  refine congrArg _ (funext fun a => Fin.ext ?_)
  obtain ⟨-, -, -, -, -, -, -, e0, e1, -⟩ := idx1 t
  match a with
  | ⟨0, _⟩ => show win1_3.index t (0 : Fin 2) * 9 + 1 * k.val = k.val; omega
  | ⟨1, _⟩ => show win1_3.index t (1 : Fin 2) * 64 + 1 * d.val = d.val; omega

/-- The scale row's block at channel d is the specification's scale. -/
theorem blk1_scale (c : Dev nD) (t : Fin cfg1.N) (d : Fin 64) :
    iblk1 (V3 m ρ) c 4 t (ix2 (0 : Fin 1) d) = Cert.Pillar.scaleK (args m c) d := by
  show (V3 m ρ c main_v16 : FVec Ideal S1x64 .f32) (((cfg1.win 4).blk t).view.emb (ix2 (0 : Fin 1) d)) = _
  rw [V3_v16, final4, final5]
  refine Eq.trans ?_ (Mid.scale_eq (args m c) d)
  refine congrArg (Mid.hostScale (args m c).γ (Mid.sums (args m c)) (Mid.sqs (args m c))) (funext fun a => Fin.ext ?_)
  obtain ⟨-, -, -, -, -, -, -, -, -, e0, e1, -⟩ := idx1 t
  match a with
  | ⟨0, _⟩ => show win1_4.index t (0 : Fin 2) * 1 + 1 * 0 = 0; omega
  | ⟨1, _⟩ => show win1_4.index t (1 : Fin 2) * 64 + 1 * d.val = d.val; omega

/-- The shift row's block at channel d is the specification's shift. -/
theorem blk1_shift (c : Dev nD) (t : Fin cfg1.N) (d : Fin 64) :
    iblk1 (V3 m ρ) c 5 t (ix2 (0 : Fin 1) d) = Cert.Pillar.shiftK (args m c) d := by
  show (V3 m ρ c main_v20 : FVec Ideal S1x64 .f32) (((cfg1.win 5).blk t).view.emb (ix2 (0 : Fin 1) d)) = _
  rw [V3_v20, final4, final5]
  refine Eq.trans ?_ (Mid.shift_eq (args m c) d)
  refine congrArg (Mid.hostShift (args m c).γ (args m c).β (Mid.sums (args m c)) (Mid.sqs (args m c))) (funext fun a => Fin.ext ?_)
  obtain ⟨-, -, -, -, -, -, -, -, -, -, -, e0, e1, -⟩ := idx1 t
  match a with
  | ⟨0, _⟩ => show win1_5.index t (0 : Fin 2) * 1 + 1 * 0 = 0; omega
  | ⟨1, _⟩ => show win1_5.index t (1 : Fin 2) * 64 + 1 * d.val = d.val; omega

theorem blockPillar1 (c : Dev nD) (t : Fin cfg1.N) (r : Fin 600) :
    blockPillar (iblk1 (V3 m ρ) c 0 t) (iblk1 (V3 m ρ) c 1 t) (iblk1 (V3 m ρ) c 2 t) r
      = (args m c).pillar (Cert.Pillar.row (tile1 t) r) := by
  have hx : (fun n k => iblk1 (V3 m ρ) c 0 t (ix3 r n k)) = fun n k => (args m c).X (ix3 (Cert.Pillar.row (tile1 t) r) n k) :=
    funext fun n => funext fun k => blk1_X m ρ c t r n k
  have hc : (fun k => iblk1 (V3 m ρ) c 1 t (ix2 r k)) = fun k => (args m c).CO (ix2 (Cert.Pillar.row (tile1 t) r) k) :=
    funext fun k => blk1_C m ρ c t r k
  unfold blockPillar Cert.Pillar.Args.pillar
  rw [hx, hc, blk1_N m ρ c t r]

theorem mat1 (c : Dev nD) (t : Fin cfg1.N) : mat (iblk1 (V3 m ρ) c 3 t) = (args m c).mat :=
  funext fun k => funext fun d => blk1_W m ρ c t k d

theorem emb6_0 (t : Fin cfg1.N) (r : Fin 600) (d : Fin 64) :
    (((cfg1.win 6).blk t).view.emb (ix2 r d)) 0 = Cert.Pillar.row (tile1 t) r := Fin.ext (by
  obtain ⟨-, -, -, -, -, -, -, -, -, -, -, -, -, e0, -⟩ := idx1 t
  show win1_6.index t (0 : Fin 2) * 600 + 1 * r.val = 600 * t.val + r.val; omega)
theorem emb6_1 (t : Fin cfg1.N) (r : Fin 600) (d : Fin 64) :
    (((cfg1.win 6).blk t).view.emb (ix2 r d)) 1 = d := Fin.ext (by
  obtain ⟨-, -, -, -, -, -, -, -, -, -, -, -, -, -, e1⟩ := idx1 t
  show win1_6.index t (1 : Fin 2) * 64 + 1 * d.val = d.val; omega)

/-- What point t writes back is block t of the tiled arrangement's result. -/
theorem flushed6_eq (c : Dev nD) (t : Fin cfg1.N) :
    (dat1 (V3 m ρ) c).flushed 6 t = ((cfg1.win 6).blk t).view.read (Elt Ideal) (Cert.Pillar.kernelFn (args m c)) := by
  show (cfg1.win 6).cut (grid1.coords t) ((dat1 (V3 m ρ) c).after 6 t) = _
  rw [after1_6]
  unfold out1_6
  rw [View.canon_unit_zero hz2]
  simp only [View.ld_unit_zero (S := S600x32x4) hz3, View.ld_unit_zero (S := S600x4) hz2, View.ld_unit_zero (S := S600x1) hz2, View.ld_unit_zero (S := S9x64) hz2, View.ld_unit_zero (S := S1x64) hz2]
  funext j
  obtain ⟨r, d, rfl⟩ : ∃ (r : Fin 600) (d : Fin 64), j = ix2 r d := ⟨j 0, j 1, eq_ix2 j⟩
  refine (out_apply (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) r d).trans ?_
  rw [blockPillar1 m ρ c t r, mat1 m ρ c t, blk1_scale m ρ c t d, blk1_shift m ρ c t d]
  show _ = Cert.Pillar.outK (args m c) ((((cfg1.win 6).blk t).view.emb (ix2 r d)) 0) ((((cfg1.win 6).blk t).view.emb (ix2 r d)) 1)
  rw [emb6_0, emb6_1]
  rfl

theorem mem_blk6 (t : Fin cfg1.N) (i : S30000x64.Idx) :
    i ∈ ((cfg1.win 6).blk t).view.set ↔ ∀ a : Fin 2, win1_6.index t a * S600x64.size a ≤ (i a).val ∧ (i a).val < win1_6.index t a * S600x64.size a + S600x64.size a := by
  show i ∈ ((View.whole main_v21).slice (win1_6.rect t)).set ↔ _
  rw [View.set_slice_whole, Rect.mem_set_unit]
  exact Iff.rfl

/-- Row p of the result is written by the point of its tile, p / 600. -/
theorem cover6 (i : S30000x64.Idx) : ∃ t : Fin cfg1.N, (cfg1.win 6).flush t = true ∧ i ∈ ((cfg1.win 6).blk t).view.set := by
  have hi0 : (i 0).val < 30000 := (i 0).isLt
  have hi1 : (i 1).val < 64 := (i 1).isLt
  obtain ⟨t, ht⟩ : ∃ t : Fin cfg1.N, t.val = (i 0).val / 600 :=
    ⟨⟨(i 0).val / 600, lt_of_lt_of_eq (by omega : (i 0).val / 600 < 50) N_1.symm⟩, rfl⟩
  refine ⟨t, flush1_6 t, ?_⟩
  rw [mem_blk6]
  obtain ⟨-, -, -, -, -, -, -, -, -, -, -, -, -, e0, e1⟩ := idx1 t
  intro a
  match a with
  | ⟨0, _⟩ => show win1_6.index t (0 : Fin 2) * 600 ≤ (i 0).val ∧ (i 0).val < win1_6.index t (0 : Fin 2) * 600 + 600; omega
  | ⟨1, _⟩ => show win1_6.index t (1 : Fin 2) * 64 ≤ (i 1).val ∧ (i 1).val < win1_6.index t (1 : Fin 2) * 64 + 64; omega

/-- After the final region the result array is the tiled arrangement's result of the launch arrays. -/
theorem final6 (c : Dev nD) : (dat1 (V3 m ρ) c).arrAt 6 cfg1.N = Cert.Pillar.kernelFn (args m c) :=
  (dat1 (V3 m ρ) c).arrAt_eq_of_cover 6 (Cert.Pillar.kernelFn (args m c)) (fun t _ => flushed6_eq m ρ c t) cover6

/-- The result's buffer at the last boundary. -/
theorem W4_result (c : Dev nD) : W4 m ρ c (Proc.devRef .tc main_v21) = Cert.Pillar.kernelFn (args m c) :=
  (W4_arr m ρ c 6).trans (final6 m ρ c)

end Cert.KernelIdeal.Final

end
-- ==== Proof.RefRead1.lean ====
/-
  The reference's stages read at explicit coordinates, first part: at slot (p, n) the nine features, the mask,
  and the layer's pre-activation of channel d, which is the specification's direct pre-activation pR.
-/
import proofs.«136292_j60533269069953_2_alg».proof.Proof.Spec
import proofs.«136292_j60533269069953_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx Cert.Pillar

variable (x0 : (⟨S30000x32x4, .f32⟩ : BufTy).Contents (Elt Ideal)) (x1 : (⟨S30000, .i32⟩ : BufTy).Contents (Elt Ideal))
  (x2 : (⟨S30000x4, .i32⟩ : BufTy).Contents (Elt Ideal)) (x3 : (⟨S9x64, .f32⟩ : BufTy).Contents (Elt Ideal))
  (x4 x5 : (⟨S64, .f32⟩ : BufTy).Contents (Elt Ideal))

/-- The six arrays as the specification's arguments. -/
abbrev args : Cert.Pillar.Args := ⟨x0, x1, x2, x3, x4, x5⟩

theorem cx_at (p : Fin 30000) :
    val_main_v17 (F := Ideal) x2 (ix2 p 0) = cx ((args x0 x1 x2 x3 x4 x5).pillar p) := by
  rw [val_main_v17_apply, val_main_v15_apply, val_main_v13_apply, val_main_v12_apply, val_main_v11_apply,
    val_main_v10_apply, val_main_v14_apply, val_main_cst_0_apply, val_main_v16_apply, val_main_cst_1_apply]
  have e : idx_main_v10 (idx_main_v11 (idx_main_v13 (ix2 p (0 : Fin 1)))) = ix2 p (3 : Fin 4) :=
    funext fun a => Fin.ext (by match a with | ⟨0, _⟩ => exact Nat.div_one _ | ⟨1, _⟩ => rfl)
  rw [e]
  rfl

theorem cy_at (p : Fin 30000) :
    val_main_v25 (F := Ideal) x2 (ix2 p 0) = cy ((args x0 x1 x2 x3 x4 x5).pillar p) := by
  rw [val_main_v25_apply, val_main_v23_apply, val_main_v21_apply, val_main_v20_apply, val_main_v19_apply,
    val_main_v18_apply, val_main_v22_apply, val_main_cst_2_apply, val_main_v24_apply, val_main_cst_3_apply]
  have e : idx_main_v18 (idx_main_v19 (idx_main_v21 (ix2 p (0 : Fin 1)))) = ix2 p (2 : Fin 4) :=
    funext fun a => Fin.ext (by match a with | ⟨0, _⟩ => exact Nat.div_one _ | ⟨1, _⟩ => rfl)
  rw [e]
  rfl

/-- The mask at a slot: one on live slots, zero on the rest. -/
theorem mask_at (p : Fin 30000) (n : Fin 32) (c : Fin 9) :
    val_main_v46 (F := Ideal) x1 (ix3 p n c) = msk ((args x0 x1 x2 x3 x4 x5).pillar p) n := by
  rw [val_main_v46_apply, val_main_v45_apply, val_main_v44_apply, val_main_v43_apply, val_main_v41_apply,
    val_main_v39_apply, val_main_v38_apply, val_main_v42_apply, val_main_v40_apply]
  have e : idx_main_v40 (idx_main_v42 (idx_main_v45 (idx_main_v46 (ix3 p n c)))) = ix1 p :=
    funext fun a => Fin.ext (by match a with | ⟨0, _⟩ => rfl)
  rw [e]
  show FloatOps.uitofp (F := Ideal) .f32 (IntOp.cmpi .slt (BitVec.ofNat 32 n.val) (x1 (ix1 p))) = _
  unfold msk live
  show (((BitVec.ofBool ((BitVec.ofNat 32 n.val).slt (x1 (ix1 p)))).toNat : ℝ) : EReal)
    = if (BitVec.ofNat 32 n.val).slt (x1 (ix1 p)) = true then (1 : EReal) else 0
  cases (BitVec.ofNat 32 n.val).slt (x1 (ix1 p)) <;> simp

/-- The host's mean of channel c over a pillar: zero plus the 32 slots' sum, over the count. -/
theorem mean_at (p : Fin 30000) (c : Fin 3) :
    val_main_v6 (F := Ideal) x0 x1 (ix3 p 0 c)
      = meanR ((args x0 x1 x2 x3 x4 x5).pillar p) ⟨c.val, by have := c.isLt; omega⟩ := by
  rw [val_main_v6_apply, val_main_v3_apply, val_main_v2_apply, val_main_cst_apply, val_main_v5_apply,
    val_main_v4_apply, val_main_v0_apply]
  have e1 : idx_main_v4 (idx_main_v5 (ix3 p (0 : Fin 1) c)) = ix1 p :=
    funext fun a => Fin.ext (by match a with | ⟨0, _⟩ => rfl)
  have e2 : ∀ k : Fin 32, idx_main_v1 (idx_main_v2 (idx_main_v3 (ix3 p (0 : Fin 1) c)) k)
      = ix3 p k (⟨c.val, by have := c.isLt; omega⟩ : Fin 4) := fun k =>
    funext fun a => Fin.ext (by match a with | ⟨0, _⟩ => rfl | ⟨1, _⟩ => rfl | ⟨2, _⟩ => rfl)
  rw [e1]
  simp only [val_main_v1_apply, e2, Ideal.ofBits_def, Ideal.ofBits_zero_f32]
  rfl

/-- A raw channel less the pillar's mean of it. -/
theorem cluster_at (p : Fin 30000) (n : Fin 32) (c : Fin 3) :
    val_main_v9 (F := Ideal) x0 x1 (ix3 p n c)
      = x0 (ix3 p n (⟨c.val, by have := c.isLt; omega⟩ : Fin 4))
        - meanR ((args x0 x1 x2 x3 x4 x5).pillar p) ⟨c.val, by have := c.isLt; omega⟩ := by
  rw [val_main_v9_apply, val_main_v7_apply, val_main_v8_apply]
  have e1 : idx_main_v8 (ix3 p n c) = ix3 p (0 : Fin 1) c :=
    funext fun a => Fin.ext (by match a with | ⟨0, _⟩ => rfl | ⟨1, _⟩ => rfl | ⟨2, _⟩ => rfl)
  have e2 : idx_main_v7 (ix3 p n c) = ix3 p n (⟨c.val, by have := c.isLt; omega⟩ : Fin 4) :=
    funext fun a => Fin.ext (by match a with | ⟨0, _⟩ => rfl | ⟨1, _⟩ => rfl | ⟨2, _⟩ => rfl)
  rw [e1, e2, mean_at]
  rfl

/-- The x offset from the voxel's centre. -/
theorem centre_x_at (p : Fin 30000) (n : Fin 32) :
    val_main_v34 (F := Ideal) x0 x2 (ix3 p n 0)
      = x0 (ix3 p n (0 : Fin 4)) - cx ((args x0 x1 x2 x3 x4 x5).pillar p) := by
  rw [val_main_v34_apply, val_main_v29_apply, val_main_v27_apply, val_main_v26_apply, val_main_v28_apply]
  have e1 : idx_main_v26 (idx_main_v27 (idx_main_v34 (ix3 p n (0 : Fin 1)))) = ix3 p n (0 : Fin 4) :=
    funext fun a => Fin.ext (by
      have hp := p.isLt; have hn := n.isLt
      match a with
      | ⟨0, _⟩ => show (p.val * 32 + n.val) / 32 = p.val; omega
      | ⟨1, _⟩ => show (p.val * 32 + n.val) / 1 % 32 = n.val; omega
      | ⟨2, _⟩ => rfl)
  have e2 : idx_main_v28 (idx_main_v34 (ix3 p n (0 : Fin 1))) = ix2 p (0 : Fin 1) :=
    funext fun a => Fin.ext (by match a with | ⟨0, _⟩ => rfl | ⟨1, _⟩ => rfl)
  rw [e1, e2, cx_at x0 x1 x2 x3 x4 x5]
  rfl

/-- The y offset from the voxel's centre. -/
theorem centre_y_at (p : Fin 30000) (n : Fin 32) :
    val_main_v35 (F := Ideal) x0 x2 (ix3 p n 0)
      = x0 (ix3 p n (1 : Fin 4)) - cy ((args x0 x1 x2 x3 x4 x5).pillar p) := by
  rw [val_main_v35_apply, val_main_v33_apply, val_main_v31_apply, val_main_v30_apply, val_main_v32_apply]
  have e1 : idx_main_v30 (idx_main_v31 (idx_main_v35 (ix3 p n (0 : Fin 1)))) = ix3 p n (1 : Fin 4) :=
    funext fun a => Fin.ext (by
      have hp := p.isLt; have hn := n.isLt
      match a with
      | ⟨0, _⟩ => show (p.val * 32 + n.val) / 32 = p.val; omega
      | ⟨1, _⟩ => show (p.val * 32 + n.val) / 1 % 32 = n.val; omega
      | ⟨2, _⟩ => rfl)
  have e2 : idx_main_v32 (idx_main_v35 (ix3 p n (0 : Fin 1))) = ix2 p (0 : Fin 1) :=
    funext fun a => Fin.ext (by match a with | ⟨0, _⟩ => rfl | ⟨1, _⟩ => rfl)
  rw [e1, e2, cy_at x0 x1 x2 x3 x4 x5]
  rfl

/-- The two centre offsets joined: column 0 is the x offset. -/
theorem centre_pair_at0 (p : Fin 30000) (n : Fin 32) :
    val_main_v36 (F := Ideal) x0 x2 (ix3 p n 0) = val_main_v34 (F := Ideal) x0 x2 (ix3 p n 0) := by
  unfold val_main_v36
  exact concatenate_pair_apply_left 2 _ _ concatenates_S30000x32x1_S30000x32x1_S30000x32x2_d2 (ix3 p n (0 : Fin 2)) rfl
    (ix3 p n (0 : Fin 1)) (fun b => by match b with | ⟨0, _⟩ => rfl | ⟨1, _⟩ => rfl | ⟨2, _⟩ => rfl)

/-- The two centre offsets joined: column 1 is the y offset. -/
theorem centre_pair_at1 (p : Fin 30000) (n : Fin 32) :
    val_main_v36 (F := Ideal) x0 x2 (ix3 p n 1) = val_main_v35 (F := Ideal) x0 x2 (ix3 p n 0) := by
  unfold val_main_v36
  exact concatenate_pair_apply_right 2 _ _ concatenates_S30000x32x1_S30000x32x1_S30000x32x2_d2 (ix3 p n (1 : Fin 2)) rfl rfl
    (ix3 p n (0 : Fin 1))
    (fun b hb => by match b with | ⟨0, _⟩ => rfl | ⟨1, _⟩ => rfl | ⟨2, _⟩ => exact absurd rfl hb)
    rfl

/-- The nine features joined: columns 0 to 3 are the raw channels. -/
theorem feats_raw (p : Fin 30000) (n : Fin 32) (c : Fin 4) :
    val_main_v37 (F := Ideal) x0 x1 x2 (ix3 p n (⟨c.val, by have := c.isLt; omega⟩ : Fin 9)) = x0 (ix3 p n c) := by
  unfold val_main_v37
  exact concatenate_apply_piece (t := S30000x32x9) 2 [⟨S30000x32x4, (x0)⟩, ⟨S30000x32x3, (val_main_v9 (F := Ideal) x0 x1)⟩, ⟨S30000x32x2, (val_main_v36 (F := Ideal) x0 x2)⟩]
    concatenates_S30000x32x4_S30000x32x3_S30000x32x2_S30000x32x9_d2 _
    0 (by show (0 : Nat) < 3; omega) S30000x32x4 x0 rfl rfl 0 rfl (ix3 p n c)
    (fun b hb => by match b with | ⟨0, _⟩ => rfl | ⟨1, _⟩ => rfl | ⟨2, _⟩ => exact absurd rfl hb)
    (Nat.zero_add _)

/-- Columns 4 to 6 are the offsets from the pillar's mean. -/
theorem feats_cluster (p : Fin 30000) (n : Fin 32) (c : Fin 3) :
    val_main_v37 (F := Ideal) x0 x1 x2 (ix3 p n (⟨4 + c.val, by have := c.isLt; omega⟩ : Fin 9))
      = val_main_v9 (F := Ideal) x0 x1 (ix3 p n c) := by
  unfold val_main_v37
  exact concatenate_apply_piece (t := S30000x32x9) 2 [⟨S30000x32x4, (x0)⟩, ⟨S30000x32x3, (val_main_v9 (F := Ideal) x0 x1)⟩, ⟨S30000x32x2, (val_main_v36 (F := Ideal) x0 x2)⟩]
    concatenates_S30000x32x4_S30000x32x3_S30000x32x2_S30000x32x9_d2 _
    1 (by show (1 : Nat) < 3; omega) S30000x32x3 (val_main_v9 (F := Ideal) x0 x1) rfl rfl 4 rfl (ix3 p n c)
    (fun b hb => by match b with | ⟨0, _⟩ => rfl | ⟨1, _⟩ => rfl | ⟨2, _⟩ => exact absurd rfl hb)
    rfl

/-- Columns 7 and 8 are the offsets from the voxel's centre. -/
theorem feats_centre (p : Fin 30000) (n : Fin 32) (c : Fin 2) :
    val_main_v37 (F := Ideal) x0 x1 x2 (ix3 p n (⟨7 + c.val, by have := c.isLt; omega⟩ : Fin 9))
      = val_main_v36 (F := Ideal) x0 x2 (ix3 p n c) := by
  unfold val_main_v37
  exact concatenate_apply_piece (t := S30000x32x9) 2 [⟨S30000x32x4, (x0)⟩, ⟨S30000x32x3, (val_main_v9 (F := Ideal) x0 x1)⟩, ⟨S30000x32x2, (val_main_v36 (F := Ideal) x0 x2)⟩]
    concatenates_S30000x32x4_S30000x32x3_S30000x32x2_S30000x32x9_d2 _
    2 (by show (2 : Nat) < 3; omega) S30000x32x2 (val_main_v36 (F := Ideal) x0 x2) rfl rfl 7 rfl (ix3 p n c)
    (fun b hb => by match b with | ⟨0, _⟩ => rfl | ⟨1, _⟩ => rfl | ⟨2, _⟩ => exact absurd rfl hb)
    rfl

/-- The nine features of slot (p, n). -/
theorem feat_at (p : Fin 30000) (n : Fin 32) (c : Fin 9) :
    val_main_v37 (F := Ideal) x0 x1 x2 (ix3 p n c) = feat ((args x0 x1 x2 x3 x4 x5).pillar p) n c := by
  match c with
  | ⟨0, _⟩ => exact feats_raw x0 x1 x2 p n 0
  | ⟨1, _⟩ => exact feats_raw x0 x1 x2 p n 1
  | ⟨2, _⟩ => exact feats_raw x0 x1 x2 p n 2
  | ⟨3, _⟩ => exact feats_raw x0 x1 x2 p n 3
  | ⟨4, _⟩ => exact (feats_cluster x0 x1 x2 p n 0).trans (cluster_at x0 x1 x2 x3 x4 x5 p n 0)
  | ⟨5, _⟩ => exact (feats_cluster x0 x1 x2 p n 1).trans (cluster_at x0 x1 x2 x3 x4 x5 p n 1)
  | ⟨6, _⟩ => exact (feats_cluster x0 x1 x2 p n 2).trans (cluster_at x0 x1 x2 x3 x4 x5 p n 2)
  | ⟨7, _⟩ => exact (feats_centre x0 x1 x2 p n 0).trans ((centre_pair_at0 x0 x2 p n).trans (centre_x_at x0 x1 x2 x3 x4 x5 p n))
  | ⟨8, _⟩ => exact (feats_centre x0 x1 x2 p n 1).trans ((centre_pair_at1 x0 x2 p n).trans (centre_y_at x0 x1 x2 x3 x4 x5 p n))

/-- A masked feature. -/
theorem masked_at (p : Fin 30000) (n : Fin 32) (c : Fin 9) :
    val_main_v47 (F := Ideal) x0 x1 x2 (ix3 p n c)
      = feat ((args x0 x1 x2 x3 x4 x5).pillar p) n c * msk ((args x0 x1 x2 x3 x4 x5).pillar p) n := by
  rw [val_main_v47_apply, feat_at x0 x1 x2 x3 x4 x5, mask_at x0 x1 x2 x3 x4 x5]
  rfl

/-- The layer's pre-activation of slot (p, n), channel d: the masked features through the matrix. -/
theorem pre_at (p : Fin 30000) (n : Fin 32) (d : Fin 64) :
    val_main_v48 (F := Ideal) x0 x1 x2 x3 (ix3 p n d) = pR (args x0 x1 x2 x3 x4 x5) p n d := by
  rw [val_main_v48_apply]
  have el : ∀ k : Fin 9, lidx_main_v48 (ix3 p n d) k = ix3 p n k := fun k =>
    funext fun a => Fin.ext (by match a with | ⟨0, _⟩ => rfl | ⟨1, _⟩ => rfl | ⟨2, _⟩ => rfl)
  have er : ∀ k : Fin 9, ridx_main_v48 (ix3 p n d) k = ix2 k d := fun k =>
    funext fun a => Fin.ext (by match a with | ⟨0, _⟩ => rfl | ⟨1, _⟩ => rfl)
  simp only [el, er, masked_at x0 x1 x2 x3 x4 x5]
  rfl

end Cert.ReferenceIdeal.RefValue
end
-- ==== Proof.RefRead2.lean ====
/-
  The reference's stages read at explicit coordinates, second part: the two sums over all pillars and slots
  (the channel's mean and its centred second moment), the normalisation, the rectification and the maximum over
  a pillar's 32 slots; the whole result is the specification's direct arrangement refFn.
-/
import proofs.«136292_j60533269069953_2_alg».proof.Proof.RefRead1
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Pillar

variable (x0 : (⟨S30000x32x4, .f32⟩ : BufTy).Contents (Elt Ideal)) (x1 : (⟨S30000, .i32⟩ : BufTy).Contents (Elt Ideal))
  (x2 : (⟨S30000x4, .i32⟩ : BufTy).Contents (Elt Ideal)) (x3 : (⟨S9x64, .f32⟩ : BufTy).Contents (Elt Ideal))
  (x4 x5 : (⟨S64, .f32⟩ : BufTy).Contents (Elt Ideal))

/-- Dropping the pillar and slot axes keeps the channel coordinate. -/
theorem drop01_val (i : S30000x32x64.Idx) :
    ((reducesTo_S30000x32x64_S64_d0_1.drop i) 0 : Nat) = (i 2 : Nat) :=
  Shape.ReducesTo.drop_apply_val_of_eq reducesTo_S30000x32x64_S64_d0_1 i 0 2

/-- The index (p, n, c) reduces to channel d exactly when c is d. -/
theorem drop01_ix3 (p : Fin 30000) (n : Fin 32) (c d : Fin 64) :
    reducesTo_S30000x32x64_S64_d0_1.drop (ix3 p n c) = ix1 d ↔ c = d := by
  constructor
  · intro h
    have h0 := congrArg (fun j : S64.Idx => (j 0 : Nat)) h
    exact Fin.ext ((drop01_val (ix3 p n c)).symm.trans h0)
  · intro h
    funext b
    match b with
    | ⟨0, _⟩ => exact Fin.ext ((drop01_val (ix3 p n c)).trans (congrArg Fin.val h))

/-- The host's sum over the pillar and slot axes, at channel d: the initial value plus the double sum over
    pillars and slots. -/
theorem hostReduceAdd_axes01 (y : S30000x32x64.Idx → EReal) (init : EReal) (d : Fin 64) :
    Ideal.hostReduceAdd reducesTo_S30000x32x64_S64_d0_1 y init (ix1 d)
      = init + ∑ p : Fin 30000, ∑ n : Fin 32, y (ix3 p n d) := by
  unfold Ideal.hostReduceAdd
  refine congrArg (init + ·) ?_
  rw [← Fintype.sum_prod_type' (fun (p : Fin 30000) (n : Fin 32) => y (ix3 p n d))]
  refine Finset.sum_nbij' (fun i : S30000x32x64.Idx => ((i 0, i 1) : Fin 30000 × Fin 32))
    (fun x : Fin 30000 × Fin 32 => (ix3 x.1 x.2 d : S30000x32x64.Idx)) ?_ ?_ ?_ ?_ ?_
  · intro i _; simp only [Finset.mem_univ]
  · intro x _
    have hx : reducesTo_S30000x32x64_S64_d0_1.drop (ix3 x.1 x.2 d) = ix1 d := (drop01_ix3 x.1 x.2 d d).2 rfl
    exact Finset.mem_filter.2 ⟨Finset.mem_univ _, hx⟩
  · intro i hi
    obtain ⟨a, b, c, rfl⟩ : ∃ a b c, i = ix3 a b c := ⟨i 0, i 1, i 2, eq_ix3 i⟩
    have h2 : c = d := (drop01_ix3 a b c d).1 (Finset.mem_filter.1 hi).2
    subst h2; rfl
  · intro x _; rfl
  · intro i hi
    obtain ⟨a, b, c, rfl⟩ : ∃ a b c, i = ix3 a b c := ⟨i 0, i 1, i 2, eq_ix3 i⟩
    have h2 : c = d := (drop01_ix3 a b c d).1 (Finset.mem_filter.1 hi).2
    subst h2; rfl

/-- The channel's sum of the pre-activations over all slots. -/
theorem sum_at (d : Fin 64) :
    val_main_v49 (F := Ideal) x0 x1 x2 x3 (ix1 d) = sumR (args x0 x1 x2 x3 x4 x5) d := by
  unfold val_main_v49
  simp only [Host.reduceAdd, Ideal.hostReduceAdd_def]
  rw [hostReduceAdd_axes01]
  simp only [pre_at x0 x1 x2 x3 x4 x5, val_main_cst_4_apply, Ideal.ofBits_def, Ideal.ofBits_zero_f32]
  rfl

/-- The channel's mean. -/
theorem mu_at (d : Fin 64) :
    val_main_v51 (F := Ideal) x0 x1 x2 x3 (ix1 d) = muR (args x0 x1 x2 x3 x4 x5) d := by
  rw [val_main_v51_apply, sum_at x0 x1 x2 x3 x4 x5, val_main_v50_apply, val_main_cst_5_apply]
  rfl

/-- A pre-activation less its channel's mean (as the variance takes it). -/
theorem centred_at (p : Fin 30000) (n : Fin 32) (d : Fin 64) :
    val_main_v54 (F := Ideal) x0 x1 x2 x3 (ix3 p n d)
      = pR (args x0 x1 x2 x3 x4 x5) p n d - muR (args x0 x1 x2 x3 x4 x5) d := by
  rw [val_main_v54_apply, pre_at x0 x1 x2 x3 x4 x5, val_main_v53_apply, val_main_v52_apply]
  have e : idx_main_v52 (idx_main_v53 (ix3 p n d)) = ix1 d :=
    funext fun a => Fin.ext (by match a with | ⟨0, _⟩ => rfl)
  rw [e, mu_at x0 x1 x2 x3 x4 x5]
  rfl

/-- The channel's sum of squared deviations. -/
theorem dev_at (d : Fin 64) :
    val_main_v56 (F := Ideal) x0 x1 x2 x3 (ix1 d) = devR (args x0 x1 x2 x3 x4 x5) d := by
  unfold val_main_v56
  simp only [Host.reduceAdd, Ideal.hostReduceAdd_def]
  rw [hostReduceAdd_axes01]
  simp only [val_main_v55_apply, centred_at x0 x1 x2 x3 x4 x5, val_main_cst_6_apply, Ideal.ofBits_def,
    Ideal.ofBits_zero_f32]
  rfl

/-- The channel's biased variance. -/
theorem var_at (d : Fin 64) :
    val_main_v58 (F := Ideal) x0 x1 x2 x3 (ix1 d) = varR (args x0 x1 x2 x3 x4 x5) d := by
  rw [val_main_v58_apply, dev_at x0 x1 x2 x3 x4 x5, val_main_v57_apply, val_main_cst_7_apply]
  rfl

/-- The channel's reciprocal standard deviation. -/
theorem rstd_at (d : Fin 64) :
    val_main_v64 (F := Ideal) x0 x1 x2 x3 (ix1 d) = rR (args x0 x1 x2 x3 x4 x5) d := by
  rw [val_main_v64_apply, val_main_v63_apply, var_at x0 x1 x2 x3 x4 x5, val_main_v62_apply, val_main_cst_8_apply]
  rfl

/-- The normalised value of slot (p, n), channel d. -/
theorem norm_at (p : Fin 30000) (n : Fin 32) (d : Fin 64) :
    val_main_v73 (F := Ideal) x0 x1 x2 x3 x4 x5 (ix3 p n d)
      = ((pR (args x0 x1 x2 x3 x4 x5) p n d - muR (args x0 x1 x2 x3 x4 x5) d) * rR (args x0 x1 x2 x3 x4 x5) d)
          * x4 (ix1 d) + x5 (ix1 d) := by
  rw [val_main_v73_apply, val_main_v70_apply, val_main_v67_apply, val_main_v61_apply, pre_at x0 x1 x2 x3 x4 x5,
    val_main_v60_apply, val_main_v59_apply, val_main_v66_apply, val_main_v65_apply, val_main_v69_apply,
    val_main_v68_apply, val_main_v72_apply, val_main_v71_apply]
  have e1 : idx_main_v59 (idx_main_v60 (ix3 p n d)) = ix1 d :=
    funext fun a => Fin.ext (by match a with | ⟨0, _⟩ => rfl)
  have e2 : idx_main_v65 (idx_main_v66 (ix3 p n d)) = ix1 d :=
    funext fun a => Fin.ext (by match a with | ⟨0, _⟩ => rfl)
  have e3 : idx_main_v68 (idx_main_v69 (ix3 p n d)) = ix1 d :=
    funext fun a => Fin.ext (by match a with | ⟨0, _⟩ => rfl)
  have e4 : idx_main_v71 (idx_main_v72 (ix3 p n d)) = ix1 d :=
    funext fun a => Fin.ext (by match a with | ⟨0, _⟩ => rfl)
  rw [e1, e2, e3, e4, mu_at x0 x1 x2 x3 x4 x5, rstd_at x0 x1 x2 x3 x4 x5]
  rfl

/-- The rectified value: the maximum with zero. -/
theorem relu_at (p : Fin 30000) (n : Fin 32) (d : Fin 64) :
    val_main_v74 (F := Ideal) x0 x1 x2 x3 x4 x5 (ix3 p n d)
      = max (((pR (args x0 x1 x2 x3 x4 x5) p n d - muR (args x0 x1 x2 x3 x4 x5) d) * rR (args x0 x1 x2 x3 x4 x5) d)
          * x4 (ix1 d) + x5 (ix1 d)) 0 := by
  rw [val_main_v74_apply, norm_at, val_main_call0_v0_apply, val_main_call0_cst_apply, Ideal.ofBits_def,
    Ideal.ofBits_zero_f32]
  rfl

/-- The fold's starting value, the float minus infinity, is the bottom element. -/
theorem neg_inf_eq_bot : Ideal.ofBits .f32 0xFF800000#32 = ⊥ := by simp [Ideal.ofBits, Ideal.ieee]

/-- The result at pillar p, channel d: the maximum over the 32 slots of the rectified values. -/
theorem out_at (p : Fin 30000) (d : Fin 64) :
    val_main_v75 (F := Ideal) x0 x1 x2 x3 x4 x5 (ix2 p d) = outR (args x0 x1 x2 x3 x4 x5) p d := by
  unfold val_main_v75
  have hR : S30000x32x64.Reduces [1] S30000x64 := by decide
  rw [Host.reduce_eq_fold_single FloatOps.maximumf _ _ reducesTo_S30000x32x64_S30000x64_d1 hR h_S_ (ix2 p d)]
  have hl : ∀ n : Fin 32, hR.lift (ix2 p d) n = ix3 p n d := fun n =>
    funext fun a => Fin.ext (by match a with | ⟨0, _⟩ => rfl | ⟨1, _⟩ => rfl | ⟨2, _⟩ => rfl)
  have hf : (val_main_v74 (F := Ideal) x0 x1 x2 x3 x4 x5 ∘ hR.lift (ix2 p d))
      = fun n : Fin 32 => max (((pR (args x0 x1 x2 x3 x4 x5) p n d - muR (args x0 x1 x2 x3 x4 x5) d)
          * rR (args x0 x1 x2 x3 x4 x5) d) * x4 (ix1 d) + x5 (ix1 d)) 0 :=
    funext fun (n : Fin 32) => by
      show val_main_v74 (F := Ideal) x0 x1 x2 x3 x4 x5 (hR.lift (ix2 p d) n) = _
      rw [hl n]
      exact relu_at x0 x1 x2 x3 x4 x5 p n d
  have hi : val_main_cst_9 (F := Ideal) (Shape.Idx.first h_S_) = ⊥ := by
    rw [val_main_cst_9_apply, Ideal.ofBits_def, neg_inf_eq_bot]
  rw [hf, hi]
  rfl

/-- The reference's result is the specification's direct arrangement. -/
theorem ref_is_refFn (x0 : (⟨S30000x32x4, .f32⟩ : BufTy).Contents (Elt Ideal)) (x1 : (⟨S30000, .i32⟩ : BufTy).Contents (Elt Ideal))
    (x2 : (⟨S30000x4, .i32⟩ : BufTy).Contents (Elt Ideal)) (x3 : (⟨S9x64, .f32⟩ : BufTy).Contents (Elt Ideal))
    (x4 x5 : (⟨S64, .f32⟩ : BufTy).Contents (Elt Ideal)) :
    Cert.ReferenceIdeal.Read.val_main_v75 (F := Ideal) x0 x1 x2 x3 x4 x5 = Cert.Pillar.refFn ⟨x0, x1, x2, x3, x4, x5⟩ := by
  funext i
  obtain ⟨p, d, rfl⟩ : ∃ p d, i = ix2 p d := ⟨i 0, i 1, eq_ix2 i⟩
  exact out_at x0 x1 x2 x3 x4 x5 p d

end Cert.ReferenceIdeal.RefValue
end
-- ==== Proof.Algebra1.lean ====
/-
  One pillar. On real inputs the tiled and the direct pre-activations of a slot are one and the same real number:
  on a dead slot both are zero (whatever the means are, the mask kills every term), and on a live slot the count is
  at least one, so the clamp is idle, both means are the same real, and the two formulas differ by distributivity.
-/
import proofs.«136292_j60533269069953_2_alg».proof.Proof.Spec
import Mathlib

noncomputable section

namespace Cert.Pillar

open Idealize.ShloMosaic Idealize.ShloMosaic.ValueIdx

/-! ## The literals -/

/-- The number of slots is 960000. -/
theorem total_eq : total = ((960000 : ℝ) : EReal) := by
  simp [total, Ideal.ofBits, Ideal.ieee, -EReal.coe_mul]; norm_num

/-- The guard is the real number 8589935 / 2^33. -/
theorem eps_eq : eps = ((8589935 / 2 ^ 33 : ℝ) : EReal) := by
  simp [eps, Ideal.ofBits, Ideal.ieee, -EReal.coe_mul]; norm_num

/-- The voxel's edge is a real number. -/
theorem vx_real : ∃ r : ℝ, vx = (r : EReal) := by
  simp [vx, Ideal.ofBits, Ideal.ieee, -EReal.coe_mul]

/-- The centre's x offset is a real number. -/
theorem offx_real : ∃ r : ℝ, offx = (r : EReal) := by
  simp [offx, Ideal.ofBits, Ideal.ieee, -EReal.coe_mul]

/-- The centre's y offset is a real number. -/
theorem offy_real : ∃ r : ℝ, offy = (r : EReal) := by
  simp [offy, Ideal.ofBits, Ideal.ieee, -EReal.coe_mul]
  exact ⟨_, (EReal.coe_neg _).symm⟩

/-! ## Finite sums -/

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over nine indices, written out. -/
theorem sum_nine {M : Type*} [AddCommMonoid M] (f : Fin 9 → M) :
    ∑ c, f c = f 0 + f 1 + f 2 + f 3 + f 4 + f 5 + f 6 + f 7 + f 8 := by
  rw [Fin.sum_univ_castSucc, Fin.sum_univ_eight]; rfl

/-! ## The two pre-activations written out -/

variable (P : Pillar) (w : Fin 9 → Fin 64 → EReal)

/-- The tiled pre-activation, sums written out. -/
theorem preK_expand (n : Fin 32) (d : Fin 64) :
    preK P w n d = msk P n *
      ((P.x n 0 * (w 0 d + w 4 d + w 7 d) + P.x n 1 * (w 1 d + w 5 d + w 8 d) + P.x n 2 * (w 2 d + w 6 d)
          + P.x n 3 * w 3 d)
        - (meanK P 0 * w 4 d + meanK P 1 * w 5 d + meanK P 2 * w 6 d + cx P * w 7 d + cy P * w 8 d)) := by
  rw [preK, Fin.sum_univ_four, Fin.sum_univ_five]; rfl

/-- The direct pre-activation, sum written out. -/
theorem preR_expand (n : Fin 32) (d : Fin 64) :
    preR P w n d =
      (P.x n 0 * msk P n) * w 0 d + (P.x n 1 * msk P n) * w 1 d + (P.x n 2 * msk P n) * w 2 d
        + (P.x n 3 * msk P n) * w 3 d
        + ((P.x n 0 - meanR P 0) * msk P n) * w 4 d + ((P.x n 1 - meanR P 1) * msk P n) * w 5 d
        + ((P.x n 2 - meanR P 2) * msk P n) * w 6 d
        + ((P.x n 0 - cx P) * msk P n) * w 7 d + ((P.x n 1 - cy P) * msk P n) * w 8 d := by
  rw [preR, sum_nine]; rfl

/-! ## A dead slot -/

/-- On a dead slot the tiled pre-activation is zero. -/
theorem preK_dead {n : Fin 32} (h : live P n = false) (d : Fin 64) : preK P w n d = 0 := by
  rw [preK, msk, h, if_neg Bool.false_ne_true, zero_mul]

/-- On a dead slot the direct pre-activation is zero: every term carries the factor zero. -/
theorem preR_dead {n : Fin 32} (h : live P n = false) (d : Fin 64) : preR P w n d = 0 := by
  unfold preR
  apply Finset.sum_eq_zero
  intro c _
  rw [msk, h, if_neg Bool.false_ne_true, mul_zero, zero_mul]

/-! ## A live slot -/

/-- A live slot's index is below the count, so the count is at least one. -/
theorem one_le_of_live {n : Fin 32} (h : live P n = true) : 1 ≤ P.np.toInt := by
  unfold live at h
  have h1 : (BitVec.ofNat 32 n.val).toInt < P.np.toInt := by simpa [BitVec.slt] using h
  have hn := n.isLt
  have h3 : (BitVec.ofNat 32 n.val).toNat = n.val := by
    rw [BitVec.toNat_ofNat]; omega
  have h2 : (BitVec.ofNat 32 n.val).toInt = (n.val : Int) := by
    rw [BitVec.toInt_eq_toNat_of_lt (by rw [h3]; omega), h3]
  omega

/-- On a live slot, with real data, both pre-activations are the same real number. -/
theorem pre_live (xr : Fin 32 → Fin 4 → ℝ) (wr : Fin 9 → Fin 64 → ℝ)
    (hx : ∀ n c, P.x n c = (xr n c : EReal)) (hw : ∀ c d, w c d = (wr c d : EReal))
    {n : Fin 32} (hl : live P n = true) (d : Fin 64) :
    ∃ r : ℝ, preK P w n d = (r : EReal) ∧ preR P w n d = (r : EReal) := by
  have hk : (1 : ℝ) ≤ (P.np.toInt : ℝ) := by exact_mod_cast one_le_of_live P hl
  have hk0 : (P.np.toInt : ℝ) ≠ 0 := by linarith
  have hmax : max (cnt P) 1 = cnt P := max_eq_left (by unfold cnt; exact_mod_cast hk)
  have hcol : ∀ c, colsum P c = ((∑ m, xr m c : ℝ) : EReal) := fun c => by
    unfold colsum; simp only [hx]; exact coe_sum _ _
  have hmK : ∀ c, meanK P c = (((∑ m, xr m c) * (1 / (P.np.toInt : ℝ)) : ℝ) : EReal) := fun c => by
    rw [meanK, hmax, cnt, Ideal.div_coe hk0, hcol, ← EReal.coe_mul]
  have hmR : ∀ c, meanR P c = (((∑ m, xr m c) * (1 / (P.np.toInt : ℝ)) : ℝ) : EReal) := fun c => by
    rw [meanR, zero_add, cnt, Ideal.div_coe hk0, hcol, ← EReal.coe_mul]
  obtain ⟨v, hv⟩ := vx_real
  obtain ⟨ox, hox⟩ := offx_real
  obtain ⟨oy, hoy⟩ := offy_real
  have hcx : cx P = ((((P.co 3).toInt : ℝ) * v + ox : ℝ) : EReal) := by rw [cx, hv, hox]; norm_cast
  have hcy : cy P = ((((P.co 2).toInt : ℝ) * v + oy : ℝ) : EReal) := by rw [cy, hv, hoy]; norm_cast
  have hm : msk P n = ((1 : ℝ) : EReal) := by rw [msk, if_pos hl]; norm_cast
  refine ⟨(xr n 0 * (wr 0 d + wr 4 d + wr 7 d) + xr n 1 * (wr 1 d + wr 5 d + wr 8 d) + xr n 2 * (wr 2 d + wr 6 d)
          + xr n 3 * wr 3 d)
        - ((∑ m, xr m 0) * (1 / (P.np.toInt : ℝ)) * wr 4 d + (∑ m, xr m 1) * (1 / (P.np.toInt : ℝ)) * wr 5 d
          + (∑ m, xr m 2) * (1 / (P.np.toInt : ℝ)) * wr 6 d + (((P.co 3).toInt : ℝ) * v + ox) * wr 7 d
          + (((P.co 2).toInt : ℝ) * v + oy) * wr 8 d), ?_, ?_⟩
  · rw [preK_expand, hm, hmK, hmK, hmK, hcx, hcy]
    simp only [hx, hw]
    norm_cast <;> ring
  · rw [preR_expand, hm, hmR, hmR, hmR, hcx, hcy]
    simp only [hx, hw]
    norm_cast <;> ring

/-- On real data both pre-activations of any slot are the same real number. -/
theorem pre_real (hx : ∀ n c, ∃ r : ℝ, P.x n c = (r : EReal)) (hw : ∀ c d, ∃ r : ℝ, w c d = (r : EReal))
    (n : Fin 32) (d : Fin 64) :
    ∃ r : ℝ, preK P w n d = (r : EReal) ∧ preR P w n d = (r : EReal) := by
  choose xr hxr using hx
  choose wr hwr using hw
  cases hl : live P n with
  | false => exact ⟨0, by rw [preK_dead P w hl, EReal.coe_zero], by rw [preR_dead P w hl, EReal.coe_zero]⟩
  | true => exact pre_live P w xr wr hxr hwr hl d

end Cert.Pillar

end
-- ==== Proof.Algebra2.lean ====
/-
  The whole arrays. With every slot's pre-activation a real number x p n d (the same in both arrangements), the
  fifty tile sums are the sum over all pillars, so both means are the real mean; the second moment minus the
  squared mean is the centred second moment, a nonnegative real, so both inverse roots are the same real number;
  and the two affine forms of the normalisation differ by distributivity.
-/
import proofs.«136292_j60533269069953_2_alg».proof.Proof.Algebra1
import Mathlib

noncomputable section

namespace Cert.Pillar

open Idealize.ShloMosaic Idealize.ShloMosaic.ValueIdx

/-! ## Regrouping and the variance identity -/

/-- Fifty tiles of 600 pillars are the 30000 pillars, each met once. -/
theorem sum_tiles {M : Type*} [AddCommMonoid M] (f : Fin 30000 → M) :
    ∑ t : Fin 50, ∑ r : Fin 600, f (row t r) = ∑ p : Fin 30000, f p := by
  rw [← Fintype.sum_prod_type']
  refine Fintype.sum_equiv (finProdFinEquiv (m := 50) (n := 600)) _ _ (fun x => ?_)
  congr 1
  apply Fin.ext
  rw [finProdFinEquiv_apply_val]
  simp only [row]
  omega

/-- The mean of the squared deviations from the mean is the mean of the squares minus the squared mean
    (960000 = 30000 * 32 terms). -/
theorem var_identity (x : Fin 30000 → Fin 32 → ℝ) :
    (∑ p, ∑ n, (x p n - (∑ p, ∑ n, x p n) * (1 / 960000)) * (x p n - (∑ p, ∑ n, x p n) * (1 / 960000)))
        * (1 / 960000)
      = (∑ p, ∑ n, x p n * x p n) * (1 / 960000)
        - ((∑ p, ∑ n, x p n) * (1 / 960000)) * ((∑ p, ∑ n, x p n) * (1 / 960000)) := by
  generalize hμ : (∑ p, ∑ n, x p n) * (1 / 960000 : ℝ) = μ
  have h1 : ∀ p n, (x p n - μ) * (x p n - μ) = x p n * x p n - 2 * μ * x p n + μ * μ := fun p n => by ring
  simp only [h1, Finset.sum_add_distrib, Finset.sum_sub_distrib, ← Finset.mul_sum, Finset.sum_const,
    Finset.card_univ, Fintype.card_fin, nsmul_eq_mul]
  rw [← hμ]
  push_cast
  ring

/-! ## The statistics as real numbers -/

/-- The real sum of channel d over all slots. -/
def rS (x : Fin 30000 → Fin 32 → Fin 64 → ℝ) (d : Fin 64) : ℝ := ∑ p, ∑ n, x p n d
/-- The real sum of squares. -/
def rQ (x : Fin 30000 → Fin 32 → Fin 64 → ℝ) (d : Fin 64) : ℝ := ∑ p, ∑ n, x p n d * x p n d
/-- The real mean. -/
def rMu (x : Fin 30000 → Fin 32 → Fin 64 → ℝ) (d : Fin 64) : ℝ := rS x d * (1 / 960000)
/-- The real sum of squared deviations from the mean. -/
def rDev (x : Fin 30000 → Fin 32 → Fin 64 → ℝ) (d : Fin 64) : ℝ :=
  ∑ p, ∑ n, (x p n d - rMu x d) * (x p n d - rMu x d)
/-- The real biased variance. -/
def rVar (x : Fin 30000 → Fin 32 → Fin 64 → ℝ) (d : Fin 64) : ℝ := rDev x d * (1 / 960000)

variable (A : Args)

/-- On finite arguments both pre-activations of every slot are the same real number. -/
theorem p_real (hA : A.Finite) (p : Fin 30000) (n : Fin 32) (d : Fin 64) :
    ∃ r : ℝ, pK A p n d = (r : EReal) ∧ pR A p n d = (r : EReal) :=
  pre_real (A.pillar p) A.mat (fun _ _ => hA.X _) (fun _ _ => hA.W _) n d

variable (x : Fin 30000 → Fin 32 → Fin 64 → ℝ)

/-- The tile sums add up to the real sum. -/
theorem sumK_eq (hK : ∀ p n d, pK A p n d = (x p n d : EReal)) (d : Fin 64) : sumK A d = (rS x d : EReal) := by
  unfold sumK tileSum rS
  rw [zero_add, sum_tiles (fun p => ∑ n : Fin 32, pK A p n d)]
  simp only [hK, coe_sum]

/-- The tile sums of squares add up to the real sum of squares. -/
theorem sqK_eq (hK : ∀ p n d, pK A p n d = (x p n d : EReal)) (d : Fin 64) : sqK A d = (rQ x d : EReal) := by
  unfold sqK tileSq rQ
  rw [zero_add, sum_tiles (fun p => ∑ n : Fin 32, pK A p n d * pK A p n d)]
  simp only [hK, ← EReal.coe_mul, coe_sum]

/-- The direct sum is the real sum. -/
theorem sumR_eq (hR : ∀ p n d, pR A p n d = (x p n d : EReal)) (d : Fin 64) : sumR A d = (rS x d : EReal) := by
  unfold sumR rS
  rw [zero_add]
  simp only [hR, coe_sum]

/-- The tiled mean is the real mean. -/
theorem muK_eq (hK : ∀ p n d, pK A p n d = (x p n d : EReal)) (d : Fin 64) : muK A d = (rMu x d : EReal) := by
  rw [muK, total_eq, Ideal.div_coe (by norm_num), sumK_eq A x hK, ← EReal.coe_mul]; rfl

/-- The direct mean is the real mean. -/
theorem muR_eq (hR : ∀ p n d, pR A p n d = (x p n d : EReal)) (d : Fin 64) : muR A d = (rMu x d : EReal) := by
  rw [muR, total_eq, Ideal.div_coe (by norm_num), sumR_eq A x hR, ← EReal.coe_mul]; rfl

/-- The direct sum of squared deviations is the real one. -/
theorem devR_eq (hR : ∀ p n d, pR A p n d = (x p n d : EReal)) (d : Fin 64) : devR A d = (rDev x d : EReal) := by
  unfold devR rDev
  rw [zero_add]
  simp only [hR, muR_eq A x hR, ← EReal.coe_sub, ← EReal.coe_mul, coe_sum]

/-- The direct variance is the real variance. -/
theorem varR_eq (hR : ∀ p n d, pR A p n d = (x p n d : EReal)) (d : Fin 64) : varR A d = (rVar x d : EReal) := by
  rw [varR, total_eq, Ideal.div_coe (by norm_num), devR_eq A x hR, ← EReal.coe_mul]; rfl

/-- The tiled variance, mean of squares minus squared mean, is the real variance too. -/
theorem varK_eq (hK : ∀ p n d, pK A p n d = (x p n d : EReal)) (d : Fin 64) : varK A d = (rVar x d : EReal) := by
  rw [varK, total_eq, Ideal.div_coe (by norm_num), sqK_eq A x hK, muK_eq A x hK, ← EReal.coe_mul, ← EReal.coe_mul,
    ← EReal.coe_sub]
  congr 1
  exact (var_identity (fun p n => x p n d)).symm

/-- The variance is a mean of squares, so it is not negative. -/
theorem rVar_nonneg (d : Fin 64) : 0 ≤ rVar x d :=
  mul_nonneg (Finset.sum_nonneg fun _ _ => Finset.sum_nonneg fun _ _ => mul_self_nonneg _) (by norm_num)

/-- The inverse root of a nonnegative real plus the guard is a real number. -/
theorem rsqrt_real {v : ℝ} (hv : 0 ≤ v) : ∃ r : ℝ, Ideal.rsqrt ((v : EReal) + eps) = (r : EReal) := by
  have he : (0 : ℝ) < 8589935 / 2 ^ 33 := by positivity
  have hpos : 0 < v + 8589935 / 2 ^ 33 := add_pos_of_nonneg_of_pos hv he
  rw [eps_eq, ← EReal.coe_add, Ideal.rsqrt_coe, if_neg (not_lt.mpr hpos.le), if_neg hpos.ne']
  exact ⟨_, rfl⟩

/-! ## The normalisation, slot by slot -/

/-- The two affine forms of the normalised pre-activation agree. -/
theorem point_eq (hA : A.Finite) (hK : ∀ p n d, pK A p n d = (x p n d : EReal))
    (hR : ∀ p n d, pR A p n d = (x p n d : EReal)) (p : Fin 30000) (n : Fin 32) (d : Fin 64) :
    pK A p n d * scaleK A d + shiftK A d
      = ((pR A p n d - muR A d) * rR A d) * A.γ (ix1 d) + A.β (ix1 d) := by
  obtain ⟨g, hg⟩ := hA.γ (ix1 d)
  obtain ⟨b, hb⟩ := hA.β (ix1 d)
  obtain ⟨r, hr⟩ := rsqrt_real (rVar_nonneg x d)
  have hrK : rK A d = (r : EReal) := by rw [rK, varK_eq A x hK, hr]
  have hrR : rR A d = (r : EReal) := by rw [rR, varR_eq A x hR, hr]
  rw [scaleK, shiftK, hrK, hrR, muK_eq A x hK, muR_eq A x hR, hK, hR, hg, hb]
  norm_cast <;> ring

/-- On finite arguments the two arrangements give the same entry for every pillar and channel. -/
theorem outK_eq_outR (hA : A.Finite) (p : Fin 30000) (d : Fin 64) : outK A p d = outR A p d := by
  choose x hK hR using p_real A hA
  unfold outK outR
  congr 1
  funext n
  rw [point_eq A x hA hK hR p n d]

/-- On finite arguments the tiled and the direct arrangement give the same array. -/
theorem kernelFn_eq_refFn (A : Args) (hA : A.Finite) : kernelFn A = refFn A := by
  funext i
  exact outK_eq_outR A hA (i 0) (i 1)

end Cert.Pillar

end
-- ==== Proof.Algebra.lean ====
/-
  The algebra of the certificate, gathered: one pillar (the two pre-activations are the same real number) and the
  whole arrays (the two arrangements of the normalisation give the same result on finite arguments).
-/
import proofs.«136292_j60533269069953_2_alg».proof.Proof.Algebra1
import proofs.«136292_j60533269069953_2_alg».proof.Proof.Algebra2
-- ==== Proof.Finite.lean ====
/-
  Finiteness. The printed predicate says that the absolute value of every entry of the four float arrays is below
  plus infinity. An extended real whose absolute value max a (-a) is below the top element is neither infinity, so
  it is a real number; every entry of the four arrays is therefore a real number.
-/
import proofs.«136292_j60533269069953_2_alg».proof.Proof.Spec
import proofs.«136292_j60533269069953_2_alg».proof.Pre_finite_inputs
import proofs.«136292_j60533269069953_2_alg».proof.Proof.Gen.Pre_finite_inputs
import Idealize.ShloMosaic.Lib.ReduceAll
import Idealize.ShloMosaic.Lib.ValueIdx
import Idealize.ShloMosaic.PureOps.Ideal.Laws

noncomputable section

namespace Cert.Pillar

open Idealize.ShloMosaic Idealize.ShloMosaic.ValueIdx

/-- The pattern of plus infinity denotes the top element. -/
theorem inf_eq_top : Ideal.ofBits .f32 0x7F800000#32 = (⊤ : EReal) := by
  simp [Ideal.ofBits, Ideal.ieee]

/-- An extended real whose absolute value is below plus infinity is a real number. -/
theorem real_of_abs_lt (a : EReal)
    (h : Ideal.cmp .olt (max a (-a)) (Ideal.ofBits .f32 0x7F800000#32) = 1#1) : ∃ r : ℝ, a = (r : EReal) := by
  rw [inf_eq_top] at h
  have hlt : max a (-a) < ⊤ := by
    by_contra hc
    simp [Ideal.cmp, hc] at h
  clear h
  revert hlt
  refine EReal.rec (motive := fun a => max a (-a) < ⊤ → ∃ r : ℝ, a = (r : EReal)) ?_ ?_ ?_ a
  · intro h; simp at h
  · intro r _; exact ⟨r, rfl⟩
  · intro h; simp at h

/-- The shape of a scalar has one index. -/
instance : Subsingleton Cert.Pre_finite_inputs.S_.Idx := ⟨fun a b => funext fun d => d.elim0⟩

/-- If the predicate holds, every float argument is an array of real numbers. -/
theorem finite_of_pre (x0 : FVec Ideal Cert.Pre_finite_inputs.S30000x32x4 .f32)
    (x1 : IVec Cert.Pre_finite_inputs.S30000 32) (x2 : IVec Cert.Pre_finite_inputs.S30000x4 32)
    (x3 : FVec Ideal Cert.Pre_finite_inputs.S9x64 .f32) (x4 x5 : FVec Ideal Cert.Pre_finite_inputs.S64 .f32)
    (h : Cert.Pre_finite_inputs.fn (F := Ideal) x0 x1 x2 x3 x4 x5 = (fun _ => 1#1)) :
    (⟨x0, x1, x2, x3, x4, x5⟩ : Cert.Pillar.Args).Finite := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.Pillar

end
-- ==== Proof.lean ====
/-
  The certificate: a pillar feature layer (nine features per point from four raw channels, a 9 x 64 linear layer
  under a mask of live points, batch normalisation over all slots, ReLU, the maximum over each pillar's slots) computed
  by two tiled passes — per-tile sums of the pre-activations and of their squares, then the normalised maximum —
  against its direct statement. The three programs run and keep their arguments; the idealization rewrote nothing; and at
  the ideal values both results are one function of the arguments on finite inputs: the kernel's result is read off the
  two regions' write-backs and the host arithmetic between them, the reference's off its run one operation at a time,
  and the two arrangements meet by the linearity of the layer in a point's raw channels, E[(x - E x)^2] = E[x^2] - (E x)^2,
  and the mask zeroing every slot on which the two means could differ.
-/
import proofs.«136292_j60533269069953_2_alg».proof.Defs
import proofs.«136292_j60533269069953_2_alg».proof.Proof.Gen.Kernel
import proofs.«136292_j60533269069953_2_alg».proof.Proof.Gen.Kernel.Frame
import proofs.«136292_j60533269069953_2_alg».proof.Proof.Gen.KernelIdeal
import proofs.«136292_j60533269069953_2_alg».proof.Proof.Gen.KernelIdeal.Frame
import proofs.«136292_j60533269069953_2_alg».proof.Proof.Gen.ReferenceIdeal
import proofs.«136292_j60533269069953_2_alg».proof.Proof.Gen.Pre_finite_inputs
import proofs.«136292_j60533269069953_2_alg».proof.Proof.Gen.ReferenceIdeal.Run
import proofs.«136292_j60533269069953_2_alg».proof.Proof.Gen.ReferenceIdeal.Read
import proofs.«136292_j60533269069953_2_alg».proof.Proof.KernelRun
import proofs.«136292_j60533269069953_2_alg».proof.Proof.Region1
import proofs.«136292_j60533269069953_2_alg».proof.Proof.RefRead2
import proofs.«136292_j60533269069953_2_alg».proof.Proof.Algebra
import proofs.«136292_j60533269069953_2_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result's conjunct dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- At the ideal values the kernel's result is the tiled arrangement of the pillar layer and the reference's the direct
    arrangement, of argument arrays that agree; on finite inputs the two arrangements are one function. -/
theorem algebraic : Cert.algebraic_KernelIdeal_ReferenceIdeal := by
  intro m ρ m' ρ' hpre hagree
  refine ⟨fun c => Cert.Pillar.kernelFn (Cert.KernelIdeal.Stats.args m c), ?_, ?_⟩
  · exact (θ_run Cert.KernelIdeal.defs _ _).mono
      (fun r h c => ⟨(h c).1.trans (Cert.KernelIdeal.Final.W4_result m ρ c), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v75_eq, (hagree c).1, (hagree c).2.1, (hagree c).2.2.1, (hagree c).2.2.2.1,
      (hagree c).2.2.2.2.1, (hagree c).2.2.2.2.2, Cert.ReferenceIdeal.RefValue.ref_is_refFn]
    exact (Cert.Pillar.kernelFn_eq_refFn (Cert.KernelIdeal.Stats.args m c) (Cert.Pillar.finite_of_pre _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
